-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32x3 : Shape := ⟨3, ![8192, 32, 3]⟩
abbrev S8192x32x1 : Shape := ⟨3, ![8192, 32, 1]⟩
abbrev S8192x192 : Shape := ⟨2, ![8192, 192]⟩
abbrev S_ : Shape := ⟨0, ![]⟩

class Facts : Prop where
  bcast_S_S8192x32x3 : S_.BroadcastsInDim S8192x32x3 (![] : Fin 0 → Fin S8192x32x3.rank)
  reducesTo_S8192x32x3_S_d0_1_2 : S8192x32x3.ReducesTo [0, 1, 2] S_
  h_S_ : 0 < S_.numel
  bcast_S_S8192x32x1 : S_.BroadcastsInDim S8192x32x1 (![] : Fin 0 → Fin S8192x32x1.rank)
  reducesTo_S8192x32x1_S_d0_1_2 : S8192x32x1.ReducesTo [0, 1, 2] S_
  bcast_S_S8192x192 : S_.BroadcastsInDim S8192x192 (![] : Fin 0 → Fin S8192x192.rank)
  reducesTo_S8192x192_S_d0_1 : S8192x192.ReducesTo [0, 1] S_

variable [Facts]

def fn {F : FTy → Type} [FloatOps F] (main_arg0 : FVec F S8192x32x3 .f32) (main_arg1 : FVec F S8192x32x1 .f32) (main_arg2 : FVec F S8192x192 .f32) : IVec S_ 1 :=
  let main_v0 : FVec F S8192x32x3 .f32 := Host.absf main_arg0
  let main_cst : FVec F S_ .f32 := constant S_ .f32 0x7F800000#32
  let main_v1 : FVec F S8192x32x3 .f32 := broadcastInDim S8192x32x3 ![] bcast_S_S8192x32x3 main_cst
  let main_v2 : IVec S8192x32x3 1 := cmpf .olt main_v0 main_v1
  let main_c : IVec S_ 1 := constantI S_ 1 1#1
  let main_v3 : IVec S_ 1 := (fun x v => Host.reduce IntOp.andi x v reducesTo_S8192x32x3_S_d0_1_2 h_S_) main_v2 main_c
  let main_v4 : FVec F S8192x32x1 .f32 := Host.absf main_arg1
  let main_cst_0 : FVec F S_ .f32 := constant S_ .f32 0x7F800000#32
  let main_v5 : FVec F S8192x32x1 .f32 := broadcastInDim S8192x32x1 ![] bcast_S_S8192x32x1 main_cst_0
  let main_v6 : IVec S8192x32x1 1 := cmpf .olt main_v4 main_v5
  let main_c_1 : IVec S_ 1 := constantI S_ 1 1#1
  let main_v7 : IVec S_ 1 := (fun x v => Host.reduce IntOp.andi x v reducesTo_S8192x32x1_S_d0_1_2 h_S_) main_v6 main_c_1
  let main_v8 : IVec S_ 1 := andi main_v3 main_v7
  let main_v9 : FVec F S8192x192 .f32 := Host.absf main_arg2
  let main_cst_2 : FVec F S_ .f32 := constant S_ .f32 0x7F800000#32
  let main_v10 : FVec F S8192x192 .f32 := broadcastInDim S8192x192 ![] bcast_S_S8192x192 main_cst_2
  let main_v11 : IVec S8192x192 1 := cmpf .olt main_v9 main_v10
  let main_c_3 : IVec S_ 1 := constantI S_ 1 1#1
  let main_v12 : IVec S_ 1 := (fun x v => Host.reduce IntOp.andi x v reducesTo_S8192x192_S_d0_1 h_S_) main_v11 main_c_3
  let main_v13 : IVec S_ 1 := andi main_v8 main_v12
  main_v13
-- ==== Kernel.lean ====
abbrev S8192x32x3 : Shape := ⟨3, ![8192, 32, 3]⟩
abbrev S8192x32x1 : Shape := ⟨3, ![8192, 32, 1]⟩
abbrev S8192x192 : Shape := ⟨2, ![8192, 192]⟩
abbrev S1x128 : Shape := ⟨2, ![1, 128]⟩
abbrev S8192x192x3 : Shape := ⟨3, ![8192, 192, 3]⟩
abbrev S32x32x3 : Shape := ⟨3, ![32, 32, 3]⟩
abbrev S32x32x1 : Shape := ⟨3, ![32, 32, 1]⟩
abbrev S32x192 : Shape := ⟨2, ![32, 192]⟩
abbrev S32x192x3 : Shape := ⟨3, ![32, 192, 3]⟩
abbrev S32x192x1 : Shape := ⟨3, ![32, 192, 1]⟩
abbrev S128 : Shape := ⟨1, ![128]⟩
abbrev S35 : Shape := ⟨1, ![35]⟩
abbrev S1x1x35 : Shape := ⟨3, ![1, 1, 35]⟩
abbrev S32x192x35 : Shape := ⟨3, ![32, 192, 35]⟩
abbrev S34 : Shape := ⟨1, ![34]⟩
abbrev S1x1x34 : Shape := ⟨3, ![1, 1, 34]⟩
abbrev S32x192x34 : Shape := ⟨3, ![32, 192, 34]⟩
abbrev S33 : Shape := ⟨1, ![33]⟩
abbrev S1x1x33 : Shape := ⟨3, ![1, 1, 33]⟩
abbrev S32x192x33 : Shape := ⟨3, ![32, 192, 33]⟩
abbrev S32 : Shape := ⟨1, ![32]⟩
abbrev S1x1x32 : Shape := ⟨3, ![1, 1, 32]⟩
abbrev S32x192x32 : Shape := ⟨3, ![32, 192, 32]⟩
abbrev S8192x192x3x1 : Shape := ⟨4, ![8192, 192, 3, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x32x3, .f32⟩
  | .hbm, ⟨1, _⟩ => ⟨S8192x32x1, .f32⟩
  | .hbm, ⟨2, _⟩ => ⟨S8192x192, .f32⟩
  | .hbm, ⟨3, _⟩ => ⟨S1x128, .f32⟩
  | .hbm, ⟨4, _⟩ => ⟨S8192x192x3, .f32⟩
  | .hbm, ⟨5, _⟩ => ⟨S8192x192x3x1, .f32⟩
  | .local _ .vmem, ⟨0, _⟩ => ⟨S32x32x3, .f32⟩
  | .local _ .vmem, ⟨1, _⟩ => ⟨S32x32x3, .f32⟩
  | .local _ .vmem, ⟨2, _⟩ => ⟨S32x32x1, .f32⟩
  | .local _ .vmem, ⟨3, _⟩ => ⟨S32x32x1, .f32⟩
  | .local _ .vmem, ⟨4, _⟩ => ⟨S32x192, .f32⟩
  | .local _ .vmem, ⟨5, _⟩ => ⟨S32x192, .f32⟩
  | .local _ .vmem, ⟨6, _⟩ => ⟨S1x128, .f32⟩
  | .local _ .vmem, ⟨7, _⟩ => ⟨S32x192x3, .f32⟩
  | .local _ .vmem, ⟨8, _⟩ => ⟨S32x192x3, .f32⟩
  | _, _ => ⟨S8192x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x192x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S32x192_S32x192_0_0 : ∀ a, (![0, 0] : Fin 2 → Nat) a + S32x192.size a ≤ S32x192.size a
  h_S32x192 : 0 < S32x192.numel
  shapeCasts_S32x192_S32x192x1 : S32x192.ShapeCasts S32x192x1
  inb_S1x128_S1x128_0_0 : ∀ a, (![0, 0] : Fin 2 → Nat) a + S1x128.size a ≤ S1x128.size a
  h_S1x128 : 0 < S1x128.numel
  shapeCasts_S1x128_S128 : S1x128.ShapeCasts S128
  slices_S128_o0_S35 : S128.Slices ![0] S35
  shapeCasts_S35_S1x1x35 : S35.ShapeCasts S1x1x35
  broadcasts_S1x1x35_S32x192x35 : S1x1x35.Broadcasts S32x192x35
  broadcasts_S32x192x1_S32x192x35 : S32x192x1.Broadcasts S32x192x35
  slices_S128_o1_S35 : S128.Slices ![1] S35
  natLt_1_32 : 1 < 32
  slices_S128_o0_S34 : S128.Slices ![0] S34
  shapeCasts_S34_S1x1x34 : S34.ShapeCasts S1x1x34
  broadcasts_S32x192x1_S32x192x34 : S32x192x1.Broadcasts S32x192x34
  broadcasts_S1x1x34_S32x192x34 : S1x1x34.Broadcasts S32x192x34
  slices_S128_o1_S34 : S128.Slices ![1] S34
  slices_S32x192x35_o0_0_0_S32x192x34 : S32x192x35.Slices ![0, 0, 0] S32x192x34
  slices_S128_o2_S34 : S128.Slices ![2] S34
  slices_S32x192x35_o0_0_1_S32x192x34 : S32x192x35.Slices ![0, 0, 1] S32x192x34
  slices_S128_o0_S33 : S128.Slices ![0] S33
  shapeCasts_S33_S1x1x33 : S33.ShapeCasts S1x1x33
  broadcasts_S32x192x1_S32x192x33 : S32x192x1.Broadcasts S32x192x33
  broadcasts_S1x1x33_S32x192x33 : S1x1x33.Broadcasts S32x192x33
  slices_S128_o2_S33 : S128.Slices ![2] S33
  slices_S32x192x34_o0_0_0_S32x192x33 : S32x192x34.Slices ![0, 0, 0] S32x192x33
  slices_S128_o3_S33 : S128.Slices ![3] S33
  slices_S128_o1_S33 : S128.Slices ![1] S33
  slices_S32x192x34_o0_0_1_S32x192x33 : S32x192x34.Slices ![0, 0, 1] S32x192x33
  slices_S128_o0_S32 : S128.Slices ![0] S32
  shapeCasts_S32_S1x1x32 : S32.ShapeCasts S1x1x32
  broadcasts_S32x192x1_S32x192x32 : S32x192x1.Broadcasts S32x192x32
  broadcasts_S1x1x32_S32x192x32 : S1x1x32.Broadcasts S32x192x32
  slices_S128_o3_S32 : S128.Slices ![3] S32
  slices_S32x192x33_o0_0_0_S32x192x32 : S32x192x33.Slices ![0, 0, 0] S32x192x32
  slices_S128_o4_S32 : S128.Slices ![4] S32
  slices_S128_o1_S32 : S128.Slices ![1] S32
  slices_S32x192x33_o0_0_1_S32x192x32 : S32x192x33.Slices ![0, 0, 1] S32x192x32
  inb_S32x32x3_S32x32x3_0_0_0 : ∀ a, (![0, 0, 0] : Fin 3 → Nat) a + S32x32x3.size a ≤ S32x32x3.size a
  h_S32x32x3 : 0 < S32x32x3.numel
  inb_S32x32x1_S32x32x1_0_0_0 : ∀ a, (![0, 0, 0] : Fin 3 → Nat) a + S32x32x1.size a ≤ S32x32x1.size a
  h_S32x32x1 : 0 < S32x32x1.numel
  broadcasts_S32x32x1_S32x32x3 : S32x32x1.Broadcasts S32x32x3
  bitsLt_bf16_f32 : FTy.bits .bf16 < FTy.bits .f32
  broadcasts_S32x192x1_S32x192x3 : S32x192x1.Broadcasts S32x192x3
  inb_S32x192x3_S32x192x3_0_0_0 : ∀ a, (![0, 0, 0] : Fin 3 → Nat) a + S32x192x3.size a ≤ S32x192x3.size a
  h_S32x192x3 : 0 < S32x192x3.numel
  bcast_S8192x192x3_S8192x192x3x1_0_1_2 : S8192x192x3.BroadcastsInDim S8192x192x3x1 (![0, 1, 2] : Fin 3 → Fin S8192x192x3x1.rank)
  dot_S32x192x32_S32x32x3_S32x192x3_2_1_1_2_0_0_wf : DotDims.WF S32x192x32 S32x32x3 S32x192x3 [2] [1] [1] [2] [0] [0]
  dot_S32x192x32_S32x32x1_S32x192x1_2_1_1_2_0_0_wf : DotDims.WF S32x192x32 S32x32x1 S32x192x1 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x3.size a ≤ S8192x32x3.size a
  hwx0_0 : ∀ i : grid0.Coords, EltTy.bits .f32 = 32 ∨ (Rect.block (s := S8192x32x3) S32x32x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32x1.size a ≤ S8192x32x1.size a
  hwx0_1 : ∀ i : grid0.Coords, EltTy.bits .f32 = 32 ∨ (Rect.block (s := S8192x32x1) S32x32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x192.size a ≤ S8192x192.size a
  hwx0_2 : ∀ i : grid0.Coords, EltTy.bits .f32 = 32 ∨ (Rect.block (s := S8192x192) S32x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x192x3.size a ≤ S8192x192x3.size a
  hwx0_4 : ∀ i : grid0.Coords, EltTy.bits .f32 = 32 ∨ (Rect.block (s := S8192x192x3) S32x192x3.size (cc0_transform_4 i) (hinb0_4 i)).WholeWords (EltTy.packing .f32)

variable [Facts₀]

def dot_S32x192x32_S32x32x3_S32x192x3_2_1_1_2_0_0 : DotDims S32x192x32 S32x32x3 S32x192x3 where
  lhsContracting := [2]
  rhsContracting := [1]
  lhsNonContracting := [1]
  rhsNonContracting := [2]
  lhsBatch := [0]
  rhsBatch := [0]
  wf := dot_S32x192x32_S32x32x3_S32x192x3_2_1_1_2_0_0_wf
def dot_S32x192x32_S32x32x1_S32x192x1_2_1_1_2_0_0 : DotDims S32x192x32 S32x32x1 S32x192x1 where
  lhsContracting := [2]
  rhsContracting := [1]
  lhsNonContracting := [1]
  rhsNonContracting := [2]
  lhsBatch := [0]
  rhsBatch := [0]
  wf := dot_S32x192x32_S32x32x1_S32x192x1_2_1_1_2_0_0_wf

abbrev win0_0 : Pipeline.Window sig grid0 :=
  Pipeline.Window.ofSpec (Memref.whole main_arg0) S32x32x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_cst) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x192x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x32x3 : Shape := ⟨3, ![8192, 32, 3]⟩
abbrev S8192x32x1 : Shape := ⟨3, ![8192, 32, 1]⟩
abbrev S8192x192 : Shape := ⟨2, ![8192, 192]⟩
abbrev S36 : Shape := ⟨1, ![36]⟩
abbrev S8192x192x1 : Shape := ⟨3, ![8192, 192, 1]⟩
abbrev S35 : Shape := ⟨1, ![35]⟩
abbrev S1x1x35 : Shape := ⟨3, ![1, 1, 35]⟩
abbrev S8192x192x35 : Shape := ⟨3, ![8192, 192, 35]⟩
abbrev S34 : Shape := ⟨1, ![34]⟩
abbrev S1x1x34 : Shape := ⟨3, ![1, 1, 34]⟩
abbrev S8192x192x34 : Shape := ⟨3, ![8192, 192, 34]⟩
abbrev S_ : Shape := ⟨0, ![]⟩
abbrev S33 : Shape := ⟨1, ![33]⟩
abbrev S1x1x33 : Shape := ⟨3, ![1, 1, 33]⟩
abbrev S8192x192x33 : Shape := ⟨3, ![8192, 192, 33]⟩
abbrev S32 : Shape := ⟨1, ![32]⟩
abbrev S1x1x32 : Shape := ⟨3, ![1, 1, 32]⟩
abbrev S8192x192x32 : Shape := ⟨3, ![8192, 192, 32]⟩
abbrev S8192x192x3 : Shape := ⟨3, ![8192, 192, 3]⟩
abbrev S8192x192x3x1 : Shape := ⟨4, ![8192, 192, 3, 1]⟩

abbrev nBuf : Space → Nat
  | .hbm => 126
  | .vmem => 0
  | .smem => 0
  | _ => 0

abbrev bufTy : (tb : Table) → Fin (tcTables nBuf tb) → BufTy
  | .hbm, ⟨0, _⟩ => ⟨S8192x32x3, .f32⟩
  | .hbm, ⟨1, _⟩ => ⟨S8192x32x1, .f32⟩
  | .hbm, ⟨2, _⟩ => ⟨S8192x192, .f32⟩
  | .hbm, ⟨3, _⟩ => ⟨S36, .f32⟩
  | .hbm, ⟨4, _⟩ => ⟨S8192x192x1, .f32⟩
  | .hbm, ⟨5, _⟩ => ⟨S35, .f32⟩
  | .hbm, ⟨6, _⟩ => ⟨S1x1x35, .f32⟩
  | .hbm, ⟨7, _⟩ => ⟨S8192x192x35, .f32⟩
  | .hbm, ⟨8, _⟩ => ⟨S8192x192x35, .f32⟩
  | .hbm, ⟨9, _⟩ => ⟨S8192x192x35, .i1⟩
  | .hbm, ⟨10, _⟩ => ⟨S35, .f32⟩
  | .hbm, ⟨11, _⟩ => ⟨S1x1x35, .f32⟩
  | .hbm, ⟨12, _⟩ => ⟨S8192x192x35, .f32⟩
  | .hbm, ⟨13, _⟩ => ⟨S8192x192x35, .f32⟩
  | .hbm, ⟨14, _⟩ => ⟨S8192x192x35, .i1⟩
  | .hbm, ⟨15, _⟩ => ⟨S8192x192x35, .i1⟩
  | .hbm, ⟨16, _⟩ => ⟨S8192x192x35, .f32⟩
  | .hbm, ⟨17, _⟩ => ⟨S34, .f32⟩
  | .hbm, ⟨18, _⟩ => ⟨S1x1x34, .f32⟩
  | .hbm, ⟨19, _⟩ => ⟨S8192x192x34, .f32⟩
  | .hbm, ⟨20, _⟩ => ⟨S8192x192x34, .f32⟩
  | .hbm, ⟨21, _⟩ => ⟨S8192x192x34, .f32⟩
  | .hbm, ⟨22, _⟩ => ⟨S34, .f32⟩
  | .hbm, ⟨23, _⟩ => ⟨S34, .f32⟩
  | .hbm, ⟨24, _⟩ => ⟨S34, .f32⟩
  | .hbm, ⟨25, _⟩ => ⟨S_, .f32⟩
  | .hbm, ⟨26, _⟩ => ⟨S34, .f32⟩
  | .hbm, ⟨27, _⟩ => ⟨S34, .f32⟩
  | .hbm, ⟨28, _⟩ => ⟨S1x1x34, .f32⟩
  | .hbm, ⟨29, _⟩ => ⟨S8192x192x34, .f32⟩
  | .hbm, ⟨30, _⟩ => ⟨S8192x192x34, .f32⟩
  | .hbm, ⟨31, _⟩ => ⟨S8192x192x34, .f32⟩
  | .hbm, ⟨32, _⟩ => ⟨S8192x192x34, .f32⟩
  | .hbm, ⟨33, _⟩ => ⟨S34, .f32⟩
  | .hbm, ⟨34, _⟩ => ⟨S1x1x34, .f32⟩
  | .hbm, ⟨35, _⟩ => ⟨S8192x192x34, .f32⟩
  | .hbm, ⟨36, _⟩ => ⟨S8192x192x34, .f32⟩
  | .hbm, ⟨37, _⟩ => ⟨S8192x192x34, .f32⟩
  | .hbm, ⟨38, _⟩ => ⟨S34, .f32⟩
  | .hbm, ⟨39, _⟩ => ⟨S34, .f32⟩
  | .hbm, ⟨40, _⟩ => ⟨S34, .f32⟩
  | .hbm, ⟨41, _⟩ => ⟨S_, .f32⟩
  | .hbm, ⟨42, _⟩ => ⟨S34, .f32⟩
  | .hbm, ⟨43, _⟩ => ⟨S34, .f32⟩
  | .hbm, ⟨44, _⟩ => ⟨S1x1x34, .f32⟩
  | .hbm, ⟨45, _⟩ => ⟨S8192x192x34, .f32⟩
  | .hbm, ⟨46, _⟩ => ⟨S8192x192x34, .f32⟩
  | .hbm, ⟨47, _⟩ => ⟨S8192x192x34, .f32⟩
  | .hbm, ⟨48, _⟩ => ⟨S8192x192x34, .f32⟩
  | .hbm, ⟨49, _⟩ => ⟨S8192x192x34, .f32⟩
  | .hbm, ⟨50, _⟩ => ⟨S33, .f32⟩
  | .hbm, ⟨51, _⟩ => ⟨S1x1x33, .f32⟩
  | .hbm, ⟨52, _⟩ => ⟨S8192x192x33, .f32⟩
  | .hbm, ⟨53, _⟩ => ⟨S8192x192x33, .f32⟩
  | .hbm, ⟨54, _⟩ => ⟨S8192x192x33, .f32⟩
  | .hbm, ⟨55, _⟩ => ⟨S33, .f32⟩
  | .hbm, ⟨56, _⟩ => ⟨S33, .f32⟩
  | .hbm, ⟨57, _⟩ => ⟨S33, .f32⟩
  | .hbm, ⟨58, _⟩ => ⟨S_, .f32⟩
  | .hbm, ⟨59, _⟩ => ⟨S33, .f32⟩
  | .hbm, ⟨60, _⟩ => ⟨S33, .f32⟩
  | .hbm, ⟨61, _⟩ => ⟨S1x1x33, .f32⟩
  | .hbm, ⟨62, _⟩ => ⟨S8192x192x33, .f32⟩
  | .hbm, ⟨63, _⟩ => ⟨S8192x192x33, .f32⟩
  | .hbm, ⟨64, _⟩ => ⟨S8192x192x33, .f32⟩
  | .hbm, ⟨65, _⟩ => ⟨S8192x192x33, .f32⟩
  | .hbm, ⟨66, _⟩ => ⟨S33, .f32⟩
  | .hbm, ⟨67, _⟩ => ⟨S1x1x33, .f32⟩
  | .hbm, ⟨68, _⟩ => ⟨S8192x192x33, .f32⟩
  | .hbm, ⟨69, _⟩ => ⟨S8192x192x33, .f32⟩
  | .hbm, ⟨70, _⟩ => ⟨S8192x192x33, .f32⟩
  | .hbm, ⟨71, _⟩ => ⟨S33, .f32⟩
  | .hbm, ⟨72, _⟩ => ⟨S33, .f32⟩
  | .hbm, ⟨73, _⟩ => ⟨S33, .f32⟩
  | .hbm, ⟨74, _⟩ => ⟨S_, .f32⟩
  | .hbm, ⟨75, _⟩ => ⟨S33, .f32⟩
  | .hbm, ⟨76, _⟩ => ⟨S33, .f32⟩
  | .hbm, ⟨77, _⟩ => ⟨S1x1x33, .f32⟩
  | .hbm, ⟨78, _⟩ => ⟨S8192x192x33, .f32⟩
  | .hbm, ⟨79, _⟩ => ⟨S8192x192x33, .f32⟩
  | .hbm, ⟨80, _⟩ => ⟨S8192x192x33, .f32⟩
  | .hbm, ⟨81, _⟩ => ⟨S8192x192x33, .f32⟩
  | .hbm, ⟨82, _⟩ => ⟨S8192x192x33, .f32⟩
  | .hbm, ⟨83, _⟩ => ⟨S32, .f32⟩
  | .hbm, ⟨84, _⟩ => ⟨S1x1x32, .f32⟩
  | .hbm, ⟨85, _⟩ => ⟨S8192x192x32, .f32⟩
  | .hbm, ⟨86, _⟩ => ⟨S8192x192x32, .f32⟩
  | .hbm, ⟨87, _⟩ => ⟨S8192x192x32, .f32⟩
  | .hbm, ⟨88, _⟩ => ⟨S32, .f32⟩
  | .hbm, ⟨89, _⟩ => ⟨S32, .f32⟩
  | .hbm, ⟨90, _⟩ => ⟨S32, .f32⟩
  | .hbm, ⟨91, _⟩ => ⟨S_, .f32⟩
  | .hbm, ⟨92, _⟩ => ⟨S32, .f32⟩
  | .hbm, ⟨93, _⟩ => ⟨S32, .f32⟩
  | .hbm, ⟨94, _⟩ => ⟨S1x1x32, .f32⟩
  | .hbm, ⟨95, _⟩ => ⟨S8192x192x32, .f32⟩
  | .hbm, ⟨96, _⟩ => ⟨S8192x192x32, .f32⟩
  | .hbm, ⟨97, _⟩ => ⟨S8192x192x32, .f32⟩
  | .hbm, ⟨98, _⟩ => ⟨S8192x192x32, .f32⟩
  | .hbm, ⟨99, _⟩ => ⟨S32, .f32⟩
  | .hbm, ⟨100, _⟩ => ⟨S1x1x32, .f32⟩
  | .hbm, ⟨101, _⟩ => ⟨S8192x192x32, .f32⟩
  | .hbm, ⟨102, _⟩ => ⟨S8192x192x32, .f32⟩
  | .hbm, ⟨103, _⟩ => ⟨S8192x192x32, .f32⟩
  | .hbm, ⟨104, _⟩ => ⟨S32, .f32⟩
  | .hbm, ⟨105, _⟩ => ⟨S32, .f32⟩
  | .hbm, ⟨106, _⟩ => ⟨S32, .f32⟩
  | .hbm, ⟨107, _⟩ => ⟨S_, .f32⟩
  | .hbm, ⟨108, _⟩ => ⟨S32, .f32⟩
  | .hbm, ⟨109, _⟩ => ⟨S32, .f32⟩
  | .hbm, ⟨110, _⟩ => ⟨S1x1x32, .f32⟩
  | .hbm, ⟨111, _⟩ => ⟨S8192x192x32, .f32⟩
  | .hbm, ⟨112, _⟩ => ⟨S8192x192x32, .f32⟩
  | .hbm, ⟨113, _⟩ => ⟨S8192x192x32, .f32⟩
  | .hbm, ⟨114, _⟩ => ⟨S8192x192x32, .f32⟩
  | .hbm, ⟨115, _⟩ => ⟨S8192x192x32, .f32⟩
  | .hbm, ⟨116, _⟩ => ⟨S8192x32x3, .f32⟩
  | .hbm, ⟨117, _⟩ => ⟨S8192x32x3, .f32⟩
  | .hbm, ⟨118, _⟩ => ⟨S8192x192x3, .f32⟩
  | .hbm, ⟨119, _⟩ => ⟨S8192x192x1, .f32⟩
  | .hbm, ⟨120, _⟩ => ⟨S_, .f32⟩
  | .hbm, ⟨121, _⟩ => ⟨S8192x192x1, .f32⟩
  | .hbm, ⟨122, _⟩ => ⟨S8192x192x1, .f32⟩
  | .hbm, ⟨123, _⟩ => ⟨S8192x192x3, .f32⟩
  | .hbm, ⟨124, _⟩ => ⟨S8192x192x3, .f32⟩
  | .hbm, ⟨125, _⟩ => ⟨S8192x192x3x1, .f32⟩
  | _, _ => ⟨S8192x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_2 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_cst_3 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_cst_4 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_cst_5 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_cst_6 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩

abbrev nD : Nat := 1
abbrev τ : Topo := Topo.v7x

variable {F : FTy → Type} [FloatOps F]

class Facts₀ : Prop where
  bcast_S8192x192_S8192x192x1_0_1 : S8192x192.BroadcastsInDim S8192x192x1 (![0, 1] : Fin 2 → Fin S8192x192x1.rank)
  slices_S36_S35_0 : S36.Slices ![0] S35
  bcast_S35_S1x1x35_2 : S35.BroadcastsInDim S1x1x35 (![2] : Fin 1 → Fin S1x1x35.rank)
  bcast_S1x1x35_S8192x192x35_0_1_2 : S1x1x35.BroadcastsInDim S8192x192x35 (![0, 1, 2] : Fin 3 → Fin S8192x192x35.rank)
  bcast_S8192x192x1_S8192x192x35_0_1_2 : S8192x192x1.BroadcastsInDim S8192x192x35 (![0, 1, 2] : Fin 3 → Fin S8192x192x35.rank)
  slices_S36_S35_1 : S36.Slices ![1] S35
  slices_S36_S34_0 : S36.Slices ![0] S34
  bcast_S34_S1x1x34_2 : S34.BroadcastsInDim S1x1x34 (![2] : Fin 1 → Fin S1x1x34.rank)
  bcast_S8192x192x1_S8192x192x34_0_1_2 : S8192x192x1.BroadcastsInDim S8192x192x34 (![0, 1, 2] : Fin 3 → Fin S8192x192x34.rank)
  bcast_S1x1x34_S8192x192x34_0_1_2 : S1x1x34.BroadcastsInDim S8192x192x34 (![0, 1, 2] : Fin 3 → Fin S8192x192x34.rank)
  slices_S36_S34_1 : S36.Slices ![1] S34
  bcast_S_S34 : S_.BroadcastsInDim S34 (![] : Fin 0 → Fin S34.rank)
  slices_S8192x192x35_S8192x192x34_0_0_0 : S8192x192x35.Slices ![0, 0, 0] S8192x192x34
  slices_S36_S34_2 : S36.Slices ![2] S34
  slices_S8192x192x35_S8192x192x34_0_0_1 : S8192x192x35.Slices ![0, 0, 1] S8192x192x34
  slices_S36_S33_0 : S36.Slices ![0] S33
  bcast_S33_S1x1x33_2 : S33.BroadcastsInDim S1x1x33 (![2] : Fin 1 → Fin S1x1x33.rank)
  bcast_S8192x192x1_S8192x192x33_0_1_2 : S8192x192x1.BroadcastsInDim S8192x192x33 (![0, 1, 2] : Fin 3 → Fin S8192x192x33.rank)
  bcast_S1x1x33_S8192x192x33_0_1_2 : S1x1x33.BroadcastsInDim S8192x192x33 (![0, 1, 2] : Fin 3 → Fin S8192x192x33.rank)
  slices_S36_S33_2 : S36.Slices ![2] S33
  bcast_S_S33 : S_.BroadcastsInDim S33 (![] : Fin 0 → Fin S33.rank)
  slices_S8192x192x34_S8192x192x33_0_0_0 : S8192x192x34.Slices ![0, 0, 0] S8192x192x33
  slices_S36_S33_3 : S36.Slices ![3] S33
  slices_S36_S33_1 : S36.Slices ![1] S33
  slices_S8192x192x34_S8192x192x33_0_0_1 : S8192x192x34.Slices ![0, 0, 1] S8192x192x33
  slices_S36_S32_0 : S36.Slices ![0] S32
  bcast_S32_S1x1x32_2 : S32.BroadcastsInDim S1x1x32 (![2] : Fin 1 → Fin S1x1x32.rank)
  bcast_S8192x192x1_S8192x192x32_0_1_2 : S8192x192x1.BroadcastsInDim S8192x192x32 (![0, 1, 2] : Fin 3 → Fin S8192x192x32.rank)
  bcast_S1x1x32_S8192x192x32_0_1_2 : S1x1x32.BroadcastsInDim S8192x192x32 (![0, 1, 2] : Fin 3 → Fin S8192x192x32.rank)
  slices_S36_S32_3 : S36.Slices ![3] S32
  bcast_S_S32 : S_.BroadcastsInDim S32 (![] : Fin 0 → Fin S32.rank)
  slices_S8192x192x33_S8192x192x32_0_0_0 : S8192x192x33.Slices ![0, 0, 0] S8192x192x32
  slices_S36_S32_4 : S36.Slices ![4] S32
  slices_S36_S32_1 : S36.Slices ![1] S32
  slices_S8192x192x33_S8192x192x32_0_0_1 : S8192x192x33.Slices ![0, 0, 1] S8192x192x32
  bcast_S8192x32x1_S8192x32x3_0_1_2 : S8192x32x1.BroadcastsInDim S8192x32x3 (![0, 1, 2] : Fin 3 → Fin S8192x32x3.rank)
  bcast_S_S8192x192x1 : S_.BroadcastsInDim S8192x192x1 (![] : Fin 0 → Fin S8192x192x1.rank)
  bcast_S8192x192x1_S8192x192x3_0_1_2 : S8192x192x1.BroadcastsInDim S8192x192x3 (![0, 1, 2] : Fin 3 → Fin S8192x192x3.rank)
  bcast_S8192x192x3_S8192x192x3x1_0_1_2 : S8192x192x3.BroadcastsInDim S8192x192x3x1 (![0, 1, 2] : Fin 3 → Fin S8192x192x3x1.rank)
  dot_S8192x192x32_S8192x32x3_S8192x192x3_2_1_1_2_0_0_wf : DotDims.WF S8192x192x32 S8192x32x3 S8192x192x3 [2] [1] [1] [2] [0] [0]
  dot_S8192x192x32_S8192x32x1_S8192x192x1_2_1_1_2_0_0_wf : DotDims.WF S8192x192x32 S8192x32x1 S8192x192x1 [2] [1] [1] [2] [0] [0]

variable [Facts₀]

def dot_S8192x192x32_S8192x32x3_S8192x192x3_2_1_1_2_0_0 : DotDims S8192x192x32 S8192x32x3 S8192x192x3 where
  lhsContracting := [2]
  rhsContracting := [1]
  lhsNonContracting := [1]
  rhsNonContracting := [2]
  lhsBatch := [0]
  rhsBatch := [0]
  wf := dot_S8192x192x32_S8192x32x3_S8192x192x3_2_1_1_2_0_0_wf
def dot_S8192x192x32_S8192x32x1_S8192x192x1_2_1_1_2_0_0 : DotDims S8192x192x32 S8192x32x1 S8192x192x1 where
  lhsContracting := [2]
  rhsContracting := [1]
  lhsNonContracting := [1]
  rhsNonContracting := [2]
  lhsBatch := [0]
  rhsBatch := [0]
  wf := dot_S8192x192x32_S8192x32x1_S8192x192x1_2_1_1_2_0_0_wf

class Facts : Prop extends Facts₀ where

variable [Facts]
-- ==== Proof.Basis.lean ====
/-
  The rational B-spline curve point, as one function of a row's data: the specification both programs meet.

  The knot vector is the clamped uniform one for 32 control points of degree 3: 36 knots, four zeros, the interior
  knots `i/29` for `i = 1 … 28`, four ones. Each knot is the value of its f32 word (the nearest float to `i/29`), and
  every operation below is the exact one on the extended reals, so the words are never evaluated: both programs carry
  the same ones. Past the 36th knot the table goes on with ones, as the padding of a wider table does; the recursion
  never reads there.

  For a parameter `t`:
  • degree 0: `ind t i` is 1 when `knot i ≤ t < knot (i + 1)` and 0 otherwise;
  • the Cox–de Boor step from degree `p - 1` to degree `p`, with the guard `ε` added to each denominator:
      `N_p i = (t - k_i) / (k_{i+p} - k_i + ε) · N_{p-1} i + (k_{i+p+1} - t) / (k_{i+p+1} - k_{i+1} + ε) · N_{p-1} (i+1)`;
  • `basis t` is three steps from `ind t`: the 32 cubic basis functions at `t`.
  With control points `P k` (one coordinate of them) and weights `W k`, the curve's coordinate at `t` is
      `(∑ k, basis t k · (P k · W k)) / (∑ k, basis t k · W k + ε)`.
  The quotient is the ideal one (`Ideal.div`), which is total.
-/
import Idealize.ShloMosaic.PureOps.Ideal
import Idealize.ShloMosaic.Lib.ValueIdx

noncomputable section

namespace Cert.Spline

open Idealize.ShloMosaic Idealize.ShloMosaic.ValueIdx

/-- The f32 word of knot `i`; ones from the 33rd on. -/
def knotWord (i : ℕ) : BitVec 32 :=
  [
    0x00000000#32, 0x00000000#32, 0x00000000#32, 0x00000000#32, 0x3D0D3DCB#32, 0x3D8D3DCB#32,
    0x3DD3DCB1#32, 0x3E0D3DCB#32, 0x3E308D3E#32, 0x3E53DCB1#32, 0x3E772C23#32, 0x3E8D3DCB#32,
    0x3E9EE584#32, 0x3EB08D3E#32, 0x3EC234F7#32, 0x3ED3DCB1#32, 0x3EE5846A#32, 0x3EF72C23#32,
    0x3F0469EE#32, 0x3F0D3DCB#32, 0x3F1611A8#32, 0x3F1EE584#32, 0x3F27B961#32, 0x3F308D3E#32,
    0x3F39611A#32, 0x3F4234F7#32, 0x3F4B08D4#32, 0x3F53DCB1#32, 0x3F5CB08D#32, 0x3F65846A#32,
    0x3F6E5847#32, 0x3F772C23#32, 0x3F800000#32, 0x3F800000#32, 0x3F800000#32, 0x3F800000#32
  ].getD i 0x3F800000#32

/-- Knot `i`, an extended real. -/
def knot (i : ℕ) : EReal := Ideal.ofBits .f32 (knotWord i)

/-- The guard added to every denominator: the float nearest `1e-7`. -/
def eps : EReal := Ideal.ofBits .f32 0x33D6BF95#32

/-- The degree-0 basis function `i` at `t`: the indicator of the knot span `[knot i, knot (i + 1))`. -/
def ind (t : EReal) (i : ℕ) : EReal := if knot i ≤ t ∧ t < knot (i + 1) then 1 else 0

/-- One Cox–de Boor step, to degree `p`, from the lower degree's functions `N`. -/
def step (p : ℕ) (t : EReal) (N : ℕ → EReal) (i : ℕ) : EReal :=
  Ideal.div (t - knot i) (knot (i + p) - knot i + eps) * N i
    + Ideal.div (knot (i + (p + 1)) - t) (knot (i + (p + 1)) - knot (i + 1) + eps) * N (i + 1)

/-- The cubic basis functions at `t`. -/
def basis (t : EReal) : ℕ → EReal := step 3 t (step 2 t (step 1 t (ind t)))

/-- One coordinate of the rational curve at `t`, from that coordinate of the 32 control points and their weights. -/
def point (P W : Fin 32 → EReal) (t : EReal) : EReal :=
  Ideal.div (∑ k : Fin 32, basis t k.val * (P k * W k)) ((∑ k : Fin 32, basis t k.val * W k) + eps)

/-- The whole result: one curve point per batch entry `g` and parameter `r`, coordinate `c`. -/
def curve (cp : (⟨3, ![8192, 32, 3]⟩ : Shape).Idx → EReal) (w : (⟨3, ![8192, 32, 1]⟩ : Shape).Idx → EReal)
    (ub : (⟨2, ![8192, 192]⟩ : Shape).Idx → EReal) : (⟨3, ![8192, 192, 3]⟩ : Shape).Idx → EReal := fun j =>
  point (fun k => cp (ix3 (j 0 : Fin 8192) k (j 2 : Fin 3))) (fun k => w (ix3 (j 0 : Fin 8192) k (0 : Fin 1)))
    (ub (ix2 (j 0 : Fin 8192) (j 1 : Fin 192)))

theorem curve_apply (cp : (⟨3, ![8192, 32, 3]⟩ : Shape).Idx → EReal) (w : (⟨3, ![8192, 32, 1]⟩ : Shape).Idx → EReal)
    (ub : (⟨2, ![8192, 192]⟩ : Shape).Idx → EReal) (g : Fin 8192) (r : Fin 192) (c : Fin 3) :
    curve cp w ub (ix3 g r c)
      = point (fun k => cp (ix3 g k c)) (fun k => w (ix3 g k (0 : Fin 1))) (ub (ix2 g r)) := rfl

/-! ## The two spellings of the indicator -/

/-- The conjunction of the two comparisons, as a one-bit word turned into a float, is the indicator. -/
theorem uitofp_andi_cmp (a b c d : EReal) :
    FloatOps.uitofp (F := Ideal) .f32 (IntOp.andi (FloatOps.cmpf (F := Ideal) (φ := .f32) .ole a b)
        (FloatOps.cmpf (F := Ideal) (φ := .f32) .olt c d))
      = if a ≤ b ∧ c < d then 1 else 0 := by
  show (((IntOp.andi (Ideal.cmp .ole a b) (Ideal.cmp .olt c d)).toNat : ℝ) : EReal) = _
  by_cases h1 : a ≤ b <;> by_cases h2 : c < d <;> simp [Ideal.cmp, IntOp.andi, h1, h2]

/-- Widening a one-bit word to 32 bits and reading it as a signed integer gives the same float as reading the bit
    unsigned: the word is 0 or 1 either way. -/
theorem sitofp_setWidth_bit (x : BitVec 1) :
    FloatOps.sitofp (F := Ideal) .f32 (x.setWidth 32) = FloatOps.uitofp (F := Ideal) .f32 x := by
  show (((x.setWidth 32).toInt : ℝ) : EReal) = ((x.toNat : ℝ) : EReal)
  have h : ∀ y : BitVec 1, (y.setWidth 32).toInt = (y.toNat : ℤ) := by decide
  rw [h x]
  simp

end Cert.Spline

end
-- ==== Proof.LibLaneReads.lean ====
/-
  Layout operations on a stack of rows, read at an index given by coordinates.

  A value computed per row `(p, q)` of an `[a, b]` grid against a short table of `n` entries lives in an
  `[a, b, n]` array. Two operands meet there: the table, one vector of `n` entries repeated for every row, and the
  rows' own scalar, one `[a, b]` matrix repeated along the last axis. A vector program makes the first by casting the
  vector to `[1, 1, n]` and broadcasting, and the second by casting the matrix to `[a, b, 1]` and broadcasting; a host
  program makes both by `broadcast_in_dim`. Read at `(p, q, i)` the first is the table at `i` and the second the
  matrix at `(p, q)`, whichever way they were made. Beside them: a vector and the last axis of an `[a, b, N]` array cut
  from an offset `o`, read at `i`, are the operand at `i + o`; a scalar broadcast anywhere is the scalar; and a
  trailing unit axis added by `broadcast_in_dim` changes nothing.
-/
import Idealize.ShloMosaic.Lib.ValueLayout

namespace Cert.Lib

open Idealize.ShloMosaic Idealize.ShloMosaic.ValueIdx

variable {α : Type}

/-! ## Cuts from an offset -/

/-- A vector cut from `o` reads, at `i`, the operand at `i + o`. -/
theorem slice1_eq {N n : ℕ} (o : ℕ) (v : (⟨1, ![N]⟩ : Shape).Idx → α)
    (h : (⟨1, ![N]⟩ : Shape).Slices ![o] ⟨1, ![n]⟩) (i : Fin n) :
    extractStridedSlice ⟨1, ![n]⟩ ![o] v h (ix1 i)
      = v (ix1 ⟨i.val + o, Nat.lt_of_lt_of_le (Nat.add_lt_add_right i.isLt o) ((Nat.add_comm n o).trans_le (h.2 0))⟩) :=
  extractStridedSlice_apply _ _ _ _ _ (fun ax => by
    match ax with
    | ⟨0, _⟩ => exact Nat.add_comm _ _)

/-- An `[a, b, N]` array cut along its last axis from `o` reads, at `(p, q, i)`, the operand at `(p, q, i + o)`. -/
theorem slice3_last_eq {a b N n : ℕ} (o : ℕ) (X : (⟨3, ![a, b, N]⟩ : Shape).Idx → α)
    (h : (⟨3, ![a, b, N]⟩ : Shape).Slices ![0, 0, o] ⟨3, ![a, b, n]⟩) (p : Fin a) (q : Fin b) (i : Fin n) :
    extractStridedSlice ⟨3, ![a, b, n]⟩ ![0, 0, o] X h (ix3 p q i)
      = X (ix3 p q ⟨i.val + o, Nat.lt_of_lt_of_le (Nat.add_lt_add_right i.isLt o) ((Nat.add_comm n o).trans_le (h.2 2))⟩) :=
  extractStridedSlice_apply _ _ _ _ _ (fun ax => by
    match ax with
    | ⟨0, _⟩ => exact (Nat.zero_add _).symm
    | ⟨1, _⟩ => exact (Nat.zero_add _).symm
    | ⟨2, _⟩ => exact Nat.add_comm _ _)

/-! ## A vector program's casts and broadcasts -/

/-- An `[a, b]` matrix cast to the column stack `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector of `n` entries cast to `[1, 1, n]` and broadcast to `[a, b, n]` reads, at `(p, q, i)`, entry `i`. -/
theorem broadcastTo_row_apply {a b n : ℕ} (v : (⟨1, ![n]⟩ : Shape).Idx → α)
    (h1 : (⟨1, ![n]⟩ : Shape).ShapeCasts ⟨3, ![1, 1, n]⟩) (h2 : (⟨3, ![1, 1, n]⟩ : Shape).Broadcasts ⟨3, ![a, b, n]⟩)
    (p : Fin a) (q : Fin b) (i : Fin n) :
    broadcastTo ⟨3, ![a, b, n]⟩ (shapeCast ⟨3, ![1, 1, n]⟩ v h1) h2 (ix3 p q i) = v (ix1 i) := by
  refine (broadcastTo_apply _ h2 (ix3 p q i) (ix3 (0 : Fin 1) (0 : Fin 1) i) fun ax => ?_).trans ?_
  · match ax with
    | ⟨0, _⟩ => rfl
    | ⟨1, _⟩ => rfl
    | ⟨2, _⟩ =>
      show i.val = if n = 1 then 0 else i.val
      split
      · have := i.isLt; omega
      · rfl
  · exact shapeCast_apply v h1 _ _ (by
      rw [Shape.rowMajor_val_one, Shape.rowMajor_val_three]
      show i.val = (0 * 1 + 0) * n + i.val
      omega)

/-- A column stack `[a, b, 1]` broadcast along its last axis to `[a, b, n]` reads, at `(p, q, i)`, row `(p, q)`'s
    one entry. -/
theorem broadcastTo_col_apply {a b n : ℕ} (x : (⟨3, ![a, b, 1]⟩ : Shape).Idx → α)
    (h : (⟨3, ![a, b, 1]⟩ : Shape).Broadcasts ⟨3, ![a, b, n]⟩) (p : Fin a) (q : Fin b) (i : Fin n) :
    broadcastTo ⟨3, ![a, b, n]⟩ x h (ix3 p q i) = x (ix3 p q (0 : Fin 1)) := by
  refine broadcastTo_apply x h (ix3 p q i) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## A host program's `broadcast_in_dim`s

The axis map is a variable here, with an equation saying which map it is: a rewrite then matches the operation
whatever the spelling of its map, and the equation is closed on the spot. -/

/-- An `[a, b]` matrix given a trailing unit axis reads, at `(p, q, u)`, the matrix at `(p, q)`. -/
theorem broadcastInDim_ab_ab1_apply {a b : ℕ} (dims : Fin 2 → Fin 3) (x : (⟨2, ![a, b]⟩ : Shape).Idx → α)
    (h : (⟨2, ![a, b]⟩ : Shape).BroadcastsInDim ⟨3, ![a, b, 1]⟩ dims) (p : Fin a) (q : Fin b) (u : Fin 1)
    (hd : dims = ![0, 1]) :
    broadcastInDim ⟨3, ![a, b, 1]⟩ dims h x (ix3 p q u) = x (ix2 p q) := by
  subst hd
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A vector of `n` entries placed on the last axis of `[1, 1, n]` and then broadcast to `[a, b, n]` reads, at
    `(p, q, i)`, entry `i`. -/
theorem broadcastInDim_row_apply {a b n : ℕ} (d1 : Fin 1 → Fin 3) (d2 : Fin 3 → Fin 3) (v : (⟨1, ![n]⟩ : Shape).Idx → α)
    (h1 : (⟨1, ![n]⟩ : Shape).BroadcastsInDim ⟨3, ![1, 1, n]⟩ d1)
    (h2 : (⟨3, ![1, 1, n]⟩ : Shape).BroadcastsInDim ⟨3, ![a, b, n]⟩ d2) (p : Fin a) (q : Fin b) (i : Fin n)
    (hd1 : d1 = ![2]) (hd2 : d2 = ![0, 1, 2]) :
    broadcastInDim ⟨3, ![a, b, n]⟩ d2 h2 (broadcastInDim ⟨3, ![1, 1, n]⟩ d1 h1 v) (ix3 p q i) = v (ix1 i) := by
  subst hd1 hd2
  refine (broadcastInDim_apply _ h2 _ (ix3 p q i) (ix3 (0 : Fin 1) (0 : Fin 1) i) fun ax => ?_).trans ?_
  · match ax with
    | ⟨0, _⟩ => rfl
    | ⟨1, _⟩ => rfl
    | ⟨2, _⟩ =>
      show i.val = if n = 1 then 0 else i.val
      split
      · have := i.isLt; omega
      · rfl
  · refine broadcastInDim_apply _ h1 v (ix3 (0 : Fin 1) (0 : Fin 1) i) (ix1 i) fun ax => ?_
    match ax with
    | ⟨0, _⟩ =>
      show i.val = if n = 1 then 0 else i.val
      split
      · have := i.isLt; omega
      · rfl

/-- A column stack `[a, b, 1]` broadcast along its last axis to `[a, b, n]` reads, at `(p, q, i)`, row `(p, q)`'s
    one entry. -/
theorem broadcastInDim_col_apply {a b n : ℕ} (dims : Fin 3 → Fin 3) (x : (⟨3, ![a, b, 1]⟩ : Shape).Idx → α)
    (h : (⟨3, ![a, b, 1]⟩ : Shape).BroadcastsInDim ⟨3, ![a, b, n]⟩ dims) (p : Fin a) (q : Fin b) (i : Fin n)
    (hd : dims = ![0, 1, 2]) :
    broadcastInDim ⟨3, ![a, b, n]⟩ dims h x (ix3 p q i) = x (ix3 p q (0 : Fin 1)) := by
  subst hd
  refine broadcastInDim_apply _ h x (ix3 p q i) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A scalar broadcast to any shape reads the scalar everywhere. -/
theorem broadcastInDim_scalar_apply {t : Shape} (dims : Fin 0 → Fin t.rank) (x : (⟨0, ![]⟩ : Shape).Idx → α)
    (h : (⟨0, ![]⟩ : Shape).BroadcastsInDim t dims) (j : t.Idx) :
    broadcastInDim t dims h x j = x ix0 :=
  broadcastInDim_apply _ h x j ix0 fun ax => ax.elim0

end Cert.Lib
-- ==== Proof.LibBatchedProduct.lean ====
/-
  A batched matrix product read at an index, at the ideal values.

  For a stack of `B` matrix pairs, `[B, M, K]` against `[B, K, N]` (the batch axis leading on both sides, the left
  operand contracted on its last axis and the right one on its middle axis), the entry `(b, p, q)` of the product is
  `∑ k, l (b, p, k) * r (b, k, q)`: a sum over the `K` positions of the one contracted axis. The library states the
  product's entry as a sum over the dimension record's own contraction index; here that index is traded for `Fin K` and
  the two operand indices are written out by coordinates, for a kernel's `tpu.matmul` into the zero accumulator and for
  the host's `dot_general` alike — so that the two read as the same sum.
-/
import Idealize.ShloMosaic.PureOps.Ideal.Laws
import Idealize.ShloMosaic.Lib.ValueIdx

noncomputable section

namespace Cert.Lib

open Idealize.ShloMosaic Idealize.ShloMosaic.ValueIdx

/-- The dimension numbers of the batched product `[B, M, K] · [B, K, N] → [B, M, N]`: batch axis 0 on both sides, the
    left operand contracted on axis 2, the right one on axis 1. -/
def batched3 (B M K N : ℕ)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

variable {B M K N : ℕ}
  (wf : DotDims.WF ⟨3, ![B, M, K]⟩ ⟨3, ![B, K, N]⟩ ⟨3, ![B, M, N]⟩ [2] [1] [1] [2] [0] [0])

/-- The product's sum over the record's contraction index is the sum over the `K` positions of the contracted axis, the
    left operand read along row `p` of matrix `b` and the right one down column `q` of matrix `b`. -/
theorem batched3_sum (l : (⟨3, ![B, M, K]⟩ : Shape).Idx → EReal) (r : (⟨3, ![B, K, N]⟩ : Shape).Idx → EReal)
    (b : Fin B) (p : Fin M) (q : Fin N) :
    (∑ k : (batched3 B M K N wf).contr.Idx,
        l ((batched3 B M K N wf).lhsIdx (ix3 b p q) k) * r ((batched3 B M K N wf).rhsIdx (ix3 b p q) k))
      = ∑ k : Fin K, l (ix3 b p k) * r (ix3 b k q) := by
  refine (Equiv.sum_comp (contrEquiv1 (batched3 B M K N wf) K rfl rfl).symm _).symm.trans ?_
  refine Finset.sum_congr rfl fun k _ => ?_
  have hl : (batched3 B M K N wf).lhsIdx (ix3 b p q) ((contrEquiv1 (batched3 B M K N wf) K rfl rfl).symm k) = ix3 b p k := by
    funext a
    refine Fin.ext ?_
    match a with
    | ⟨0, _⟩ => rfl
    | ⟨1, _⟩ => rfl
    | ⟨2, _⟩ =>
      exact ((batched3 B M K N wf).lhsIdx_val_of_single (cl := 2) rfl _ _).trans
        (contrEquiv1_symm_val (batched3 B M K N wf) K rfl rfl k)
  have hr : (batched3 B M K N wf).rhsIdx (ix3 b p q) ((contrEquiv1 (batched3 B M K N wf) K rfl rfl).symm k) = ix3 b k q := by
    funext a
    refine Fin.ext ?_
    match a with
    | ⟨0, _⟩ => rfl
    | ⟨1, _⟩ =>
      exact ((batched3 B M K N wf).rhsIdx_val_of_single (cr := 1) rfl _ _).trans
        (contrEquiv1_symm_val (batched3 B M K N wf) K rfl rfl k)
    | ⟨2, _⟩ => rfl
  rw [hl, hr]

/-- A kernel's batched `tpu.matmul` into the zero accumulator, read at `(b, p, q)`. -/
theorem batched3_matmul_zero_apply {φ₁ φ₂ : FTy} (prec : Option ContractPrecision)
    (l : FVec Ideal ⟨3, ![B, M, K]⟩ φ₁) (r : FVec Ideal ⟨3, ![B, K, N]⟩ φ₂) (b : Fin B) (p : Fin M) (q : Fin N) :
    FloatOps.matmul (batched3 B M K N wf) prec l r (constant ⟨3, ![B, M, N]⟩ .f32 0x00000000#32) (ix3 b p q)
      = ∑ k : Fin K, l (ix3 b p k) * r (ix3 b k q) :=
  (Ideal.matmul_constant_zero_apply (batched3 B M K N wf) prec l r (ix3 b p q)).trans (batched3_sum wf l r b p q)

/-- The host's batched `dot_general`, read at `(b, p, q)`: the same sum. -/
theorem batched3_dotGeneral_apply {φ₁ φ₂ : FTy} (prec : Option ContractPrecision) (sched : HostSchedule)
    (l : FVec Ideal ⟨3, ![B, M, K]⟩ φ₁) (r : FVec Ideal ⟨3, ![B, K, N]⟩ φ₂) (b : Fin B) (p : Fin M) (q : Fin N) :
    FloatOps.dotGeneral (batched3 B M K N wf) prec sched l r (ix3 b p q)
      = ∑ k : Fin K, l (ix3 b p k) * r (ix3 b k q) :=
  (Ideal.dotGeneral_apply (batched3 B M K N wf) prec sched l r (ix3 b p q)).trans (batched3_sum wf l r b p q)

end Cert.Lib

end
-- ==== Proof.KernelLevels.lean ====
/-
  What one grid point of the kernel computes, entry by entry, at the ideal values.

  A grid point works on a block of 32 batch entries: their control points `x0 : [32, 32, 3]`, weights `x1 : [32, 32, 1]`
  and parameters `x2 : [32, 192]`, beside the knot table `x3 : [1, 128]` (the 36 knots and padding). Every intermediate
  is an array `[32, 192, n]`: for each of the block's rows `(b, r)`, with parameter `t = x2 (b, r)`, the `n` basis
  functions of one degree. Read at `(b, r, i)` they are the specification's: the degree-0 indicator of the knot span,
  then one Cox–de Boor step per degree (`n = 34, 33, 32`), and the stored block at `(b, r, c)` is the rational curve
  point of row `b`'s control points and weights at `t`. The proofs only move the index inward: through the pointwise
  operations by definition, through the casts, broadcasts and cuts by their reads at an index, through the two batched
  matrix products (whose bf16 operands are, at the ideal values, the f32 ones) by the sum over the contracted axis.
-/
import proofs.«124682_j36618891166097_2_alg».proof.Proof.Gen.KernelIdeal.Skeleton
import proofs.«124682_j36618891166097_2_alg».proof.Proof.Basis
import proofs.«124682_j36618891166097_2_alg».proof.Proof.LibLaneReads
import proofs.«124682_j36618891166097_2_alg».proof.Proof.LibBatchedProduct

noncomputable section

namespace Cert.KernelIdeal.Levels

open Cert.KernelIdeal Cert.KernelIdeal.Gen Cert.Spline Cert.Lib Idealize.ShloMosaic Idealize.ShloMosaic.ValueIdx

/-- The parameters as a column stack: at `(b, r, ·)`, row `(b, r)`'s parameter. -/
theorem param_apply (x2 : Vec Ideal S32x192 .f32) (b : Fin 32) (r : Fin 192) (u : Fin 1) :
    k0_pay2 (F := Ideal) x2 (ix3 b r u) = x2 (ix2 b r) := by
  unfold k0_pay2
  exact shapeCast_ab_ab1_apply x2 _ b r u

/-- The knot table as a vector: entry `i` of its one row. -/
theorem table_apply (x3 : Vec Ideal S1x128 .f32) (i : Fin 128) :
    k0_pay3 (F := Ideal) x3 (ix1 i) = x3 (ix2 (0 : Fin 1) i) := by
  unfold k0_pay3
  exact shapeCast_1a_a_apply x3 _ i

/-- Degree 1 at `(b, r, i)`: one step from the indicators. -/
theorem deg1_apply (x2 : Vec Ideal S32x192 .f32) (x3 : Vec Ideal S1x128 .f32)
    (hk : ∀ i : Fin 128, x3 (ix2 (0 : Fin 1) i) = knot i.val) (b : Fin 32) (r : Fin 192) (i : Fin 34) :
    k0_pay4 (F := Ideal) x2 x3 (ix3 b r i) = step 1 (x2 (ix2 b r)) (ind (x2 (ix2 b r))) i.val := by
  unfold k0_pay4 step ind eps
  simp only [addf, mulf, subf, divf, cmpf, andi, extui, sitofp, broadcast,
    broadcastTo_row_apply, broadcastTo_col_apply, slice1_eq, slice3_last_eq, param_apply, table_apply, hk,
    sitofp_setWidth_bit, uitofp_andi_cmp, Nat.add_zero]
  rfl

/-- The numerator of degree 2's left quotient, computed ahead: the parameter less knot `i`. -/
theorem diff_apply (x2 : Vec Ideal S32x192 .f32) (x3 : Vec Ideal S1x128 .f32)
    (hk : ∀ i : Fin 128, x3 (ix2 (0 : Fin 1) i) = knot i.val) (b : Fin 32) (r : Fin 192) (i : Fin 33) :
    k0_pay5 (F := Ideal) x2 x3 (ix3 b r i) = x2 (ix2 b r) - knot i.val := by
  unfold k0_pay5
  simp only [subf, broadcastTo_row_apply, broadcastTo_col_apply, slice1_eq, param_apply, table_apply, hk, Nat.add_zero]
  rfl

/-- Degree 2 at `(b, r, i)`: one step from whatever row `(b, r)` holds of the lower degree (`N`), given the row's
    parameter `t`, the knot table, and the precomputed differences. -/
theorem deg2_apply (v1 : FVec Ideal S32x192x1 .f32) (v3 : FVec Ideal S128 .f32) (v47 : FVec Ideal S32x192x34 .f32)
    (v52 : FVec Ideal S32x192x33 .f32) (b : Fin 32) (r : Fin 192) (t : EReal) (N : ℕ → EReal)
    (h1 : v1 (ix3 b r (0 : Fin 1)) = t) (h3 : ∀ i : Fin 128, v3 (ix1 i) = knot i.val)
    (h47 : ∀ i : Fin 34, v47 (ix3 b r i) = N i.val) (h52 : ∀ i : Fin 33, v52 (ix3 b r i) = t - knot i.val)
    (i : Fin 33) :
    k0_pay6 (F := Ideal) v1 v3 v47 v52 (ix3 b r i) = step 2 t N i.val := by
  unfold k0_pay6 step eps
  simp only [addf, mulf, subf, divf, broadcast, broadcastTo_row_apply, broadcastTo_col_apply, slice1_eq, slice3_last_eq,
    h1, h3, h47, h52, Nat.add_zero]
  rfl

/-- The left half of degree 3 at `(b, r, i)`. -/
theorem deg3_left_apply (v1 : FVec Ideal S32x192x1 .f32) (v3 : FVec Ideal S128 .f32) (v47 : FVec Ideal S32x192x34 .f32)
    (v52 : FVec Ideal S32x192x33 .f32) (b : Fin 32) (r : Fin 192) (t : EReal) (N : ℕ → EReal)
    (h1 : v1 (ix3 b r (0 : Fin 1)) = t) (h3 : ∀ i : Fin 128, v3 (ix1 i) = knot i.val)
    (h47 : ∀ i : Fin 34, v47 (ix3 b r i) = N i.val) (h52 : ∀ i : Fin 33, v52 (ix3 b r i) = t - knot i.val)
    (i : Fin 32) :
    k0_pay7 (F := Ideal) v1 v3 v47 v52 (ix3 b r i)
      = Ideal.div (t - knot i.val) (knot (i.val + 3) - knot i.val + eps) * step 2 t N i.val := by
  unfold k0_pay7 eps
  simp only [addf, mulf, subf, divf, broadcast, broadcastTo_row_apply, broadcastTo_col_apply, slice1_eq, slice3_last_eq,
    h1, h3, deg2_apply v1 v3 v47 v52 b r t N h1 h3 h47 h52, Nat.add_zero]
  rfl

/-- The right half of degree 3 at `(b, r, i)`. -/
theorem deg3_right_apply (v1 : FVec Ideal S32x192x1 .f32) (v3 : FVec Ideal S128 .f32) (v47 : FVec Ideal S32x192x34 .f32)
    (v52 : FVec Ideal S32x192x33 .f32) (b : Fin 32) (r : Fin 192) (t : EReal) (N : ℕ → EReal)
    (h1 : v1 (ix3 b r (0 : Fin 1)) = t) (h3 : ∀ i : Fin 128, v3 (ix1 i) = knot i.val)
    (h47 : ∀ i : Fin 34, v47 (ix3 b r i) = N i.val) (h52 : ∀ i : Fin 33, v52 (ix3 b r i) = t - knot i.val)
    (i : Fin 32) :
    k0_pay8 (F := Ideal) v1 v3 v47 v52 (ix3 b r i)
      = Ideal.div (knot (i.val + 4) - t) (knot (i.val + 4) - knot (i.val + 1) + eps) * step 2 t N (i.val + 1) := by
  unfold k0_pay8 eps
  simp only [addf, mulf, subf, divf, broadcast, broadcastTo_row_apply, broadcastTo_col_apply, slice1_eq, slice3_last_eq,
    h1, h3, deg2_apply v1 v3 v47 v52 b r t N h1 h3 h47 h52, Nat.add_zero]
  rfl

/-- The two batched products' dimension numbers are the batched product's. -/
theorem dims3_eq : dot_S32x192x32_S32x32x3_S32x192x3_2_1_1_2_0_0
    = batched3 32 192 32 3 Facts₀.dot_S32x192x32_S32x32x3_S32x192x3_2_1_1_2_0_0_wf := rfl
theorem dims1_eq : dot_S32x192x32_S32x32x1_S32x192x1_2_1_1_2_0_0
    = batched3 32 192 32 1 Facts₀.dot_S32x192x32_S32x32x1_S32x192x1_2_1_1_2_0_0_wf := rfl

/-- THE BLOCK a grid point stores, at `(b, r, c)`: the curve point of row `b`'s control points (coordinate `c`) and
    weights at row `(b, r)`'s parameter. -/
theorem block_apply (x0 : Vec Ideal S32x32x3 .f32) (x1 : Vec Ideal S32x32x1 .f32) (x2 : Vec Ideal S32x192 .f32)
    (x3 : Vec Ideal S1x128 .f32) (hk : ∀ i : Fin 128, x3 (ix2 (0 : Fin 1) i) = knot i.val)
    (b : Fin 32) (r : Fin 192) (c : Fin 3) :
    k0_pay1 (F := Ideal) (k0_pay7 (k0_pay2 x2) (k0_pay3 x3) (k0_pay4 x2 x3) (k0_pay5 x2 x3))
        (k0_pay8 (k0_pay2 x2) (k0_pay3 x3) (k0_pay4 x2 x3) (k0_pay5 x2 x3)) x0 x1 (ix3 b r c)
      = point (fun k => x0 (ix3 b k c)) (fun k => x1 (ix3 b k (0 : Fin 1))) (x2 (ix2 b r)) := by
  have h1 : k0_pay2 (F := Ideal) x2 (ix3 b r (0 : Fin 1)) = x2 (ix2 b r) := param_apply x2 b r 0
  have h3 : ∀ i : Fin 128, k0_pay3 (F := Ideal) x3 (ix1 i) = knot i.val := fun i => (table_apply x3 i).trans (hk i)
  have h47 : ∀ i : Fin 34, k0_pay4 (F := Ideal) x2 x3 (ix3 b r i) = step 1 (x2 (ix2 b r)) (ind (x2 (ix2 b r))) i.val :=
    deg1_apply x2 x3 hk b r
  have h52 : ∀ i : Fin 33, k0_pay5 (F := Ideal) x2 x3 (ix3 b r i) = x2 (ix2 b r) - knot i.val := diff_apply x2 x3 hk b r
  unfold k0_pay1 point basis eps
  simp only [addf, mulf, divf, truncf, broadcast, matmul, Ideal.truncf_def, dims3_eq, dims1_eq,
    batched3_matmul_zero_apply, broadcastTo_col_apply,
    deg3_left_apply _ _ _ _ b r _ _ h1 h3 h47 h52, deg3_right_apply _ _ _ _ b r _ _ h1 h3 h47 h52]
  rfl

end Cert.KernelIdeal.Levels

end
-- ==== Proof.KernelArray.lean ====
/-
  From the grid points' blocks to the kernel's result array, and through the trailing unit axis to its result.

  Grid point `t` (of 256) works on batch entries `32 t … 32 t + 31`: its blocks of the control points, the weights and
  the parameters are those rows of the three argument arrays, its knot block is the whole constant table (whose first
  36 words are the specification's knots), and it writes back rows `32 t … 32 t + 31` of the result. By the block's
  read (`Levels.block_apply`) what it writes at `(b, r, c)` is the curve point of batch entry `32 t + b` at parameter
  `r`, coordinate `c`: block `t` of the one function `curve` of the argument arrays. The 256 blocks tile the result
  array (row `g` lies in block `g / 32`), so the array ends at `curve`; the one host operation after the region gives
  it a trailing unit axis.
-/
import proofs.«124682_j36618891166097_2_alg».proof.Proof.Gen.KernelIdeal.Frame
import proofs.«124682_j36618891166097_2_alg».proof.Proof.KernelLevels
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Levels Cert.Spline Idealize.ShloMosaic.ValueIdx
open Idealize.ShloMosaic.StableHlo

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The knot table -/

/-- The constant table as the region finds it: the one host operation before the region wrote it. -/
theorem table_entry (c : Dev nD) :
    (V m c main_cst : S1x128.Idx → EReal) = fun i => Ideal.ofBits .f32 (lit0 (S1x128.rowMajor i)) := by
  show StableHlo.after hostOps0 (fun b => m (c, b)) (Proc.devRef .tc main_cst) = _
  after_results
  rfl

/-- The table's words are the specification's knots' (the 36 knots, then ones). -/
theorem lit0_eq : ∀ i : Fin 128, lit0 i = knotWord i.val := by decide

/-! ## The index maps, decided over the grid -/

/-- Point `t` takes block `t` of each batched array (every other block index is 0) and the one block of the table. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Batch entry `32 t + b`: row `b` of point `t`'s blocks. -/
def entry (t : Fin cfg0.N) (b : Fin 32) : Fin 8192 :=
  ⟨t.val * 32 + b.val, by have := t.isLt; have hN : cfg0.N = 256 := N_0; have := b.isLt; omega⟩

/-! ## The input blocks as rows of their arrays -/

/-- The knot block at any point, at position `i`, is knot `i`. -/
theorem table_block (c : Dev nD) (t : Fin cfg0.N) (i : Fin 128) :
    (iblk m c 3 t : Vec Ideal S1x128 .f32) (ix2 (0 : Fin 1) i) = knot i.val := by
  obtain ⟨-, -, -, -, -, -, -, -, e30, e31, -, -, -⟩ := idx_facts t
  show V m c main_cst (((cfg0.win 3).blk t).view.emb (ix2 (0 : Fin 1) i)) = _
  have he : ((cfg0.win 3).blk t).view.emb (ix2 (0 : Fin 1) i) = ix2 (0 : Fin 1) i := by
    funext a; apply Fin.ext
    match a with
    | ⟨0, _⟩ => show win0_3.index t (0 : Fin 2) * 1 + 1 * 0 = 0; omega
    | ⟨1, _⟩ => show win0_3.index t (1 : Fin 2) * 128 + 1 * i.val = i.val; omega
  rw [he, table_entry]
  show Ideal.ofBits .f32 (lit0 (S1x128.rowMajor (ix2 (0 : Fin 1) i))) = knot i.val
  have hr : (S1x128.rowMajor (ix2 (0 : Fin 1) i)).val = i.val := by
    rw [Shape.rowMajor_val_two]; show 0 * 128 + i.val = i.val; omega
  exact congrArg (Ideal.ofBits .f32) ((lit0_eq (S1x128.rowMajor (ix2 (0 : Fin 1) i))).trans (congrArg knotWord hr))

/-- The control-point block at point `t`: rows `32 t + b` of the array. -/
theorem cp_block (c : Dev nD) (t : Fin cfg0.N) (b : Fin 32) (k : Fin 32) (q : Fin 3) :
    (iblk m c 0 t : Vec Ideal S32x32x3 .f32) (ix3 b k q) = V m c main_arg0 (ix3 (entry t b) k q) := by
  obtain ⟨e00, e01, e02, -, -, -, -, -, -, -, -, -, -⟩ := idx_facts t
  show V m c main_arg0 (((cfg0.win 0).blk t).view.emb (ix3 b k q)) = _
  refine congrArg (V m c main_arg0) (funext fun a => Fin.ext ?_)
  match a with
  | ⟨0, _⟩ => show win0_0.index t (0 : Fin 3) * 32 + 1 * b.val = t.val * 32 + b.val; omega
  | ⟨1, _⟩ => show win0_0.index t (1 : Fin 3) * 32 + 1 * k.val = k.val; omega
  | ⟨2, _⟩ => show win0_0.index t (2 : Fin 3) * 3 + 1 * q.val = q.val; omega

/-- The weight block at point `t`: rows `32 t + b` of the array. -/
theorem w_block (c : Dev nD) (t : Fin cfg0.N) (b : Fin 32) (k : Fin 32) (u : Fin 1) :
    (iblk m c 1 t : Vec Ideal S32x32x1 .f32) (ix3 b k u) = V m c main_arg1 (ix3 (entry t b) k u) := by
  obtain ⟨-, -, -, e10, e11, e12, -, -, -, -, -, -, -⟩ := idx_facts t
  show V m c main_arg1 (((cfg0.win 1).blk t).view.emb (ix3 b k u)) = _
  refine congrArg (V m c main_arg1) (funext fun a => Fin.ext ?_)
  match a with
  | ⟨0, _⟩ => show win0_1.index t (0 : Fin 3) * 32 + 1 * b.val = t.val * 32 + b.val; omega
  | ⟨1, _⟩ => show win0_1.index t (1 : Fin 3) * 32 + 1 * k.val = k.val; omega
  | ⟨2, _⟩ => show win0_1.index t (2 : Fin 3) * 1 + 1 * u.val = u.val; omega

/-- The parameter block at point `t`: rows `32 t + b` of the array. -/
theorem ub_block (c : Dev nD) (t : Fin cfg0.N) (b : Fin 32) (r : Fin 192) :
    (iblk m c 2 t : Vec Ideal S32x192 .f32) (ix2 b r) = V m c main_arg2 (ix2 (entry t b) r) := by
  obtain ⟨-, -, -, -, -, -, e20, e21, -, -, -, -, -⟩ := idx_facts t
  show V m c main_arg2 (((cfg0.win 2).blk t).view.emb (ix2 b r)) = _
  refine congrArg (V m c main_arg2) (funext fun a => Fin.ext ?_)
  match a with
  | ⟨0, _⟩ => show win0_2.index t (0 : Fin 2) * 32 + 1 * b.val = t.val * 32 + b.val; omega
  | ⟨1, _⟩ => show win0_2.index t (1 : Fin 2) * 192 + 1 * r.val = r.val; omega

/-! ## What a point writes back -/

/-- WHAT POINT `t` WRITES BACK is block `t` of `curve` of the argument arrays as the region finds them. -/
theorem flushed_eq (c : Dev nD) (t : Fin cfg0.N) :
    (dats m 0 c).flushed 4 t
      = ((cfg0.win 4).blk t).view.read (Elt Ideal) (curve (V m c main_arg0) (V m c main_arg1) (V m c main_arg2)) := by
  show (cfg0.win 4).cut (grid0.coords t) ((dats m 0 c).after 4 t) = _
  rw [after0_4]
  unfold out0_4
  rw [View.canon_unit_zero hz3]
  simp only [View.ld_unit_zero (S := S32x192) hz2, View.ld_unit_zero (S := S1x128) hz2,
    View.ld_unit_zero (S := S32x32x3) hz3, View.ld_unit_zero (S := S32x32x1) hz3]
  obtain ⟨-, -, -, -, -, -, -, -, -, -, e40, e41, e42⟩ := idx_facts t
  refine funext fun (j : S32x192x3.Idx) => ?_
  obtain ⟨b, r, q, rfl⟩ : ∃ (b : Fin 32) (r : Fin 192) (q : Fin 3), j = ix3 b r q := ⟨j 0, j 1, j 2, eq_ix3 j⟩
  refine (block_apply (iblk m c 0 t) (iblk m c 1 t) (iblk m c 2 t) (iblk m c 3 t) (table_block m c t) b r q).trans ?_
  show _ = curve (V m c main_arg0) (V m c main_arg1) (V m c main_arg2) (((cfg0.win 4).blk t).view.emb (ix3 b r q))
  have he : ((cfg0.win 4).blk t).view.emb (ix3 b r q) = ix3 (entry t b) r q := by
    funext a; apply Fin.ext
    match a with
    | ⟨0, _⟩ => show win0_4.index t (0 : Fin 3) * 32 + 1 * b.val = t.val * 32 + b.val; omega
    | ⟨1, _⟩ => show win0_4.index t (1 : Fin 3) * 192 + 1 * r.val = r.val; omega
    | ⟨2, _⟩ => show win0_4.index t (2 : Fin 3) * 3 + 1 * q.val = q.val; omega
  rw [he, curve_apply]
  have h0 : (fun k : Fin 32 => (iblk m c 0 t : Vec Ideal S32x32x3 .f32) (ix3 b k q))
      = fun k => V m c main_arg0 (ix3 (entry t b) k q) := funext fun k => cp_block m c t b k q
  have h1 : (fun k : Fin 32 => (iblk m c 1 t : Vec Ideal S32x32x1 .f32) (ix3 b k (0 : Fin 1)))
      = fun k => V m c main_arg1 (ix3 (entry t b) k (0 : Fin 1)) := funext fun k => w_block m c t b k 0
  rw [h0, h1, ub_block m c t b r]

/-! ## The cover, and the array -/

/-- An index of the result array is in point `t`'s block iff each coordinate is in the block's range on its axis. -/
theorem mem_blk (t : Fin cfg0.N) (i : S8192x192x3.Idx) :
    i ∈ ((cfg0.win 4).blk t).view.set
      ↔ ∀ a : Fin 3, win0_4.index t a * S32x192x3.size a ≤ (i a).val
          ∧ (i a).val < win0_4.index t a * S32x192x3.size a + S32x192x3.size a := by
  show i ∈ ((View.whole main_v0).slice (win0_4.rect t)).set ↔ _
  rw [View.set_slice_whole, Rect.mem_set_unit]
  exact Iff.rfl

/-- Every index of the result array lies in the block of the point its row belongs to: row `g` in block `g / 32`. -/
theorem covered (i : S8192x192x3.Idx) :
    ∃ t : Fin cfg0.N, (cfg0.win 4).flush t = true ∧ i ∈ ((cfg0.win 4).blk t).view.set := by
  have hN : cfg0.N = 256 := N_0
  have h0 : (i 0).val < 8192 := (i 0).isLt
  have h1 : (i 1).val < 192 := (i 1).isLt
  have h2 : (i 2).val < 3 := (i 2).isLt
  obtain ⟨t, ht⟩ : ∃ t : Fin cfg0.N, t.val = (i 0).val / 32 := ⟨⟨(i 0).val / 32, by omega⟩, rfl⟩
  obtain ⟨-, -, -, -, -, -, -, -, -, -, e40, e41, e42⟩ := idx_facts t
  refine ⟨t, flush0_4 t, ?_⟩
  rw [mem_blk]
  intro a
  match a with
  | ⟨0, _⟩ =>
    show win0_4.index t (0 : Fin 3) * 32 ≤ (i 0).val ∧ (i 0).val < win0_4.index t (0 : Fin 3) * 32 + 32
    omega
  | ⟨1, _⟩ =>
    show win0_4.index t (1 : Fin 3) * 192 ≤ (i 1).val ∧ (i 1).val < win0_4.index t (1 : Fin 3) * 192 + 192
    omega
  | ⟨2, _⟩ =>
    show win0_4.index t (2 : Fin 3) * 3 ≤ (i 2).val ∧ (i 2).val < win0_4.index t (2 : Fin 3) * 3 + 3
    omega

/-- THE RESULT ARRAY of the region, after the run, is `curve` of the argument arrays. -/
theorem final (c : Dev nD) :
    (dats m 0 c).arrAt 4 cfg0.N = curve (V m c main_arg0) (V m c main_arg1) (V m c main_arg2) :=
  (dats m 0 c).arrAt_eq_of_cover 4 _ (fun t _ => flushed_eq m c t) (covered)

/-! ## The host operation after the region, and the run -/

/-- The program's result: the region's array with a trailing unit axis. -/
theorem tail_eq (c : Dev nD) :
    Pipeline.afterTail₀ cfgs (dats m) 0 (V0 m) [hostOps1] c main_v1
      = broadcastInDim S8192x192x3x1 ![0, 1, 2] bcast_S8192x192x3_S8192x192x3x1_0_1_2
          (curve (m ((c.tc : Thread nD τ).loc main_arg0)) (m ((c.tc : Thread nD τ).loc main_arg1)) (m ((c.tc : Thread nD τ).loc main_arg2))) := by
  unfold Pipeline.afterTail₀
  show StableHlo.after hostOps1 _ (Proc.devRef .tc main_v1) = _
  after_results
  refine congrArg _ ((Pipeline.withArrays_arr spec0 launch0.win.arr_inj c _ _ 4).trans ((final m c).trans ?_))
  rw [V_main_arg0, V_main_arg1, V_main_arg2]

/-- The kernel's run, read: its result is `curve` of its arguments with a trailing unit axis; the arguments end
    unchanged. -/
theorem run : θ_run defs (onTc (τ := τ) (main (F := Ideal))) ⟨m, fun _ => 0, ρ⟩ fun r => ∀ c : Dev nD,
      r.2.mem ((c.tc : Thread nD τ).loc main_v1)
          = broadcastInDim S8192x192x3x1 ![0, 1, 2] bcast_S8192x192x3_S8192x192x3x1_0_1_2
              (curve (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Whole

end
-- ==== Proof.RefOps.lean ====
/- The reference program's @main restated as the LIST of its 123 host operations, in order: each line of the printed
   `main_part0 … main_part2` without its `hlo rfl (…) (fun _ => .ret ⟨⟩)` wrapper. With it, the remark that every
   operation touches TensorCore buffers only, one library lemma per operation by its arity. -/
import proofs.«124682_j36618891166097_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 123 operations, in order. -/
abbrev ops : List (HloOp τ sig (Elt F)) :=
  [ nullary main_cst (fun i => FloatOps.ofBits .f32 (lit0 (S36.rowMajor i))),
    unary main_arg2 main_v0 (broadcastInDim S8192x192x1 ![0, 1] bcast_S8192x192_S8192x192x1_0_1 : (⟨S8192x192, .f32⟩ : BufTy).Contents (Elt F) → (⟨S8192x192x1, .f32⟩ : BufTy).Contents (Elt F)),
    unary main_cst main_v1 ((extractStridedSlice S35 ![0] · slices_S36_S35_0) : (⟨S36, .f32⟩ : BufTy).Contents (Elt F) → (⟨S35, .f32⟩ : BufTy).Contents (Elt F)),
    unary main_v1 main_v2 (broadcastInDim S1x1x35 ![2] bcast_S35_S1x1x35_2 : (⟨S35, .f32⟩ : BufTy).Contents (Elt F) → (⟨S1x1x35, .f32⟩ : BufTy).Contents (Elt F)),
    unary main_v2 main_v3 (broadcastInDim S8192x192x35 ![0, 1, 2] bcast_S1x1x35_S8192x192x35_0_1_2 : (⟨S1x1x35, .f32⟩ : BufTy).Contents (Elt F) → (⟨S8192x192x35, .f32⟩ : BufTy).Contents (Elt F)),
    unary main_v0 main_v4 (broadcastInDim S8192x192x35 ![0, 1, 2] bcast_S8192x192x1_S8192x192x35_0_1_2 : (⟨S8192x192x1, .f32⟩ : BufTy).Contents (Elt F) → (⟨S8192x192x35, .f32⟩ : BufTy).Contents (Elt F)),
    binary main_v3 main_v4 main_v5 (cmpf .ole : (⟨S8192x192x35, .f32⟩ : BufTy).Contents (Elt F) → (⟨S8192x192x35, .f32⟩ : BufTy).Contents (Elt F) → (⟨S8192x192x35, .i1⟩ : BufTy).Contents (Elt F)),
    unary main_cst main_v6 ((extractStridedSlice S35 ![1] · slices_S36_S35_1) : (⟨S36, .f32⟩ : BufTy).Contents (Elt F) → (⟨S35, .f32⟩ : BufTy).Contents (Elt F)),
    unary main_v6 main_v7 (broadcastInDim S1x1x35 ![2] bcast_S35_S1x1x35_2 : (⟨S35, .f32⟩ : BufTy).Contents (Elt F) → (⟨S1x1x35, .f32⟩ : BufTy).Contents (Elt F)),
    unary main_v0 main_v8 (broadcastInDim S8192x192x35 ![0, 1, 2] bcast_S8192x192x1_S8192x192x35_0_1_2 : (⟨S8192x192x1, .f32⟩ : BufTy).Contents (Elt F) → (⟨S8192x192x35, .f32⟩ : BufTy).Contents (Elt F)),
    unary main_v7 main_v9 (broadcastInDim S8192x192x35 ![0, 1, 2] bcast_S1x1x35_S8192x192x35_0_1_2 : (⟨S1x1x35, .f32⟩ : BufTy).Contents (Elt F) → (⟨S8192x192x35, .f32⟩ : BufTy).Contents (Elt F)),
    binary main_v8 main_v9 main_v10 (cmpf .olt : (⟨S8192x192x35, .f32⟩ : BufTy).Contents (Elt F) → (⟨S8192x192x35, .f32⟩ : BufTy).Contents (Elt F) → (⟨S8192x192x35, .i1⟩ : BufTy).Contents (Elt F)),
    binary main_v5 main_v10 main_v11 (andi : (⟨S8192x192x35, .i1⟩ : BufTy).Contents (Elt F) → (⟨S8192x192x35, .i1⟩ : BufTy).Contents (Elt F) → (⟨S8192x192x35, .i1⟩ : BufTy).Contents (Elt F)),
    unary main_v11 main_v12 (uitofp .f32 : (⟨S8192x192x35, .i1⟩ : BufTy).Contents (Elt F) → (⟨S8192x192x35, .f32⟩ : BufTy).Contents (Elt F)),
    unary main_cst main_v13 ((extractStridedSlice S34 ![0] · slices_S36_S34_0) : (⟨S36, .f32⟩ : BufTy).Contents (Elt F) → (⟨S34, .f32⟩ : BufTy).Contents (Elt F)),
    unary main_v13 main_v14 (broadcastInDim S1x1x34 ![2] bcast_S34_S1x1x34_2 : (⟨S34, .f32⟩ : BufTy).Contents (Elt F) → (⟨S1x1x34, .f32⟩ : BufTy).Contents (Elt F)),
    unary main_v0 main_v15 (broadcastInDim S8192x192x34 ![0, 1, 2] bcast_S8192x192x1_S8192x192x34_0_1_2 : (⟨S8192x192x1, .f32⟩ : BufTy).Contents (Elt F) → (⟨S8192x192x34, .f32⟩ : BufTy).Contents (Elt F)),
    unary main_v14 main_v16 (broadcastInDim S8192x192x34 ![0, 1, 2] bcast_S1x1x34_S8192x192x34_0_1_2 : (⟨S1x1x34, .f32⟩ : BufTy).Contents (Elt F) → (⟨S8192x192x34, .f32⟩ : BufTy).Contents (Elt F)),
    binary main_v15 main_v16 main_v17 (subf : (⟨S8192x192x34, .f32⟩ : BufTy).Contents (Elt F) → (⟨S8192x192x34, .f32⟩ : BufTy).Contents (Elt F) → (⟨S8192x192x34, .f32⟩ : BufTy).Contents (Elt F)),
    unary main_cst main_v18 ((extractStridedSlice S34 ![1] · slices_S36_S34_1) : (⟨S36, .f32⟩ : BufTy).Contents (Elt F) → (⟨S34, .f32⟩ : BufTy).Contents (Elt F)),
    unary main_cst main_v19 ((extractStridedSlice S34 ![0] · slices_S36_S34_0) : (⟨S36, .f32⟩ : BufTy).Contents (Elt F) → (⟨S34, .f32⟩ : BufTy).Contents (Elt F)),
    binary main_v18 main_v19 main_v20 (subf : (⟨S34, .f32⟩ : BufTy).Contents (Elt F) → (⟨S34, .f32⟩ : BufTy).Contents (Elt F) → (⟨S34, .f32⟩ : BufTy).Contents (Elt F)),
    nullary main_cst_0 (constant S_ .f32 0x33D6BF95#32),
    unary main_cst_0 main_v21 (broadcastInDim S34 ![] bcast_S_S34 : (⟨S_, .f32⟩ : BufTy).Contents (Elt F) → (⟨S34, .f32⟩ : BufTy).Contents (Elt F)),
    binary main_v20 main_v21 main_v22 (addf : (⟨S34, .f32⟩ : BufTy).Contents (Elt F) → (⟨S34, .f32⟩ : BufTy).Contents (Elt F) → (⟨S34, .f32⟩ : BufTy).Contents (Elt F)),
    unary main_v22 main_v23 (broadcastInDim S1x1x34 ![2] bcast_S34_S1x1x34_2 : (⟨S34, .f32⟩ : BufTy).Contents (Elt F) → (⟨S1x1x34, .f32⟩ : BufTy).Contents (Elt F)),
    unary main_v23 main_v24 (broadcastInDim S8192x192x34 ![0, 1, 2] bcast_S1x1x34_S8192x192x34_0_1_2 : (⟨S1x1x34, .f32⟩ : BufTy).Contents (Elt F) → (⟨S8192x192x34, .f32⟩ : BufTy).Contents (Elt F)),
    binary main_v17 main_v24 main_v25 (Host.divf : (⟨S8192x192x34, .f32⟩ : BufTy).Contents (Elt F) → (⟨S8192x192x34, .f32⟩ : BufTy).Contents (Elt F) → (⟨S8192x192x34, .f32⟩ : BufTy).Contents (Elt F)),
    unary main_v12 main_v26 ((extractStridedSlice S8192x192x34 ![0, 0, 0] · slices_S8192x192x35_S8192x192x34_0_0_0) : (⟨S8192x192x35, .f32⟩ : BufTy).Contents (Elt F) → (⟨S8192x192x34, .f32⟩ : BufTy).Contents (Elt F)),
    binary main_v25 main_v26 main_v27 (mulf : (⟨S8192x192x34, .f32⟩ : BufTy).Contents (Elt F) → (⟨S8192x192x34, .f32⟩ : BufTy).Contents (Elt F) → (⟨S8192x192x34, .f32⟩ : BufTy).Contents (Elt F)),
    unary main_cst main_v28 ((extractStridedSlice S34 ![2] · slices_S36_S34_2) : (⟨S36, .f32⟩ : BufTy).Contents (Elt F) → (⟨S34, .f32⟩ : BufTy).Contents (Elt F)),
    unary main_v28 main_v29 (broadcastInDim S1x1x34 ![2] bcast_S34_S1x1x34_2 : (⟨S34, .f32⟩ : BufTy).Contents (Elt F) → (⟨S1x1x34, .f32⟩ : BufTy).Contents (Elt F)),
    unary main_v29 main_v30 (broadcastInDim S8192x192x34 ![0, 1, 2] bcast_S1x1x34_S8192x192x34_0_1_2 : (⟨S1x1x34, .f32⟩ : BufTy).Contents (Elt F) → (⟨S8192x192x34, .f32⟩ : BufTy).Contents (Elt F)),
    unary main_v0 main_v31 (broadcastInDim S8192x192x34 ![0, 1, 2] bcast_S8192x192x1_S8192x192x34_0_1_2 : (⟨S8192x192x1, .f32⟩ : BufTy).Contents (Elt F) → (⟨S8192x192x34, .f32⟩ : BufTy).Contents (Elt F)),
    binary main_v30 main_v31 main_v32 (subf : (⟨S8192x192x34, .f32⟩ : BufTy).Contents (Elt F) → (⟨S8192x192x34, .f32⟩ : BufTy).Contents (Elt F) → (⟨S8192x192x34, .f32⟩ : BufTy).Contents (Elt F)),
    unary main_cst main_v33 ((extractStridedSlice S34 ![2] · slices_S36_S34_2) : (⟨S36, .f32⟩ : BufTy).Contents (Elt F) → (⟨S34, .f32⟩ : BufTy).Contents (Elt F)),
    unary main_cst main_v34 ((extractStridedSlice S34 ![1] · slices_S36_S34_1) : (⟨S36, .f32⟩ : BufTy).Contents (Elt F) → (⟨S34, .f32⟩ : BufTy).Contents (Elt F)),
    binary main_v33 main_v34 main_v35 (subf : (⟨S34, .f32⟩ : BufTy).Contents (Elt F) → (⟨S34, .f32⟩ : BufTy).Contents (Elt F) → (⟨S34, .f32⟩ : BufTy).Contents (Elt F)),
    nullary main_cst_1 (constant S_ .f32 0x33D6BF95#32),
    unary main_cst_1 main_v36 (broadcastInDim S34 ![] bcast_S_S34 : (⟨S_, .f32⟩ : BufTy).Contents (Elt F) → (⟨S34, .f32⟩ : BufTy).Contents (Elt F)),
    binary main_v35 main_v36 main_v37 (addf : (⟨S34, .f32⟩ : BufTy).Contents (Elt F) → (⟨S34, .f32⟩ : BufTy).Contents (Elt F) → (⟨S34, .f32⟩ : BufTy).Contents (Elt F)),
    unary main_v37 main_v38 (broadcastInDim S1x1x34 ![2] bcast_S34_S1x1x34_2 : (⟨S34, .f32⟩ : BufTy).Contents (Elt F) → (⟨S1x1x34, .f32⟩ : BufTy).Contents (Elt F)),
    unary main_v38 main_v39 (broadcastInDim S8192x192x34 ![0, 1, 2] bcast_S1x1x34_S8192x192x34_0_1_2 : (⟨S1x1x34, .f32⟩ : BufTy).Contents (Elt F) → (⟨S8192x192x34, .f32⟩ : BufTy).Contents (Elt F)),
    binary main_v32 main_v39 main_v40 (Host.divf : (⟨S8192x192x34, .f32⟩ : BufTy).Contents (Elt F) → (⟨S8192x192x34, .f32⟩ : BufTy).Contents (Elt F) → (⟨S8192x192x34, .f32⟩ : BufTy).Contents (Elt F)),
    unary main_v12 main_v41 ((extractStridedSlice S8192x192x34 ![0, 0, 1] · slices_S8192x192x35_S8192x192x34_0_0_1) : (⟨S8192x192x35, .f32⟩ : BufTy).Contents (Elt F) → (⟨S8192x192x34, .f32⟩ : BufTy).Contents (Elt F)),
    binary main_v40 main_v41 main_v42 (mulf : (⟨S8192x192x34, .f32⟩ : BufTy).Contents (Elt F) → (⟨S8192x192x34, .f32⟩ : BufTy).Contents (Elt F) → (⟨S8192x192x34, .f32⟩ : BufTy).Contents (Elt F)),
    binary main_v27 main_v42 main_v43 (addf : (⟨S8192x192x34, .f32⟩ : BufTy).Contents (Elt F) → (⟨S8192x192x34, .f32⟩ : BufTy).Contents (Elt F) → (⟨S8192x192x34, .f32⟩ : BufTy).Contents (Elt F)),
    unary main_cst main_v44 ((extractStridedSlice S33 ![0] · slices_S36_S33_0) : (⟨S36, .f32⟩ : BufTy).Contents (Elt F) → (⟨S33, .f32⟩ : BufTy).Contents (Elt F)),
    unary main_v44 main_v45 (broadcastInDim S1x1x33 ![2] bcast_S33_S1x1x33_2 : (⟨S33, .f32⟩ : BufTy).Contents (Elt F) → (⟨S1x1x33, .f32⟩ : BufTy).Contents (Elt F)),
    unary main_v0 main_v46 (broadcastInDim S8192x192x33 ![0, 1, 2] bcast_S8192x192x1_S8192x192x33_0_1_2 : (⟨S8192x192x1, .f32⟩ : BufTy).Contents (Elt F) → (⟨S8192x192x33, .f32⟩ : BufTy).Contents (Elt F)),
    unary main_v45 main_v47 (broadcastInDim S8192x192x33 ![0, 1, 2] bcast_S1x1x33_S8192x192x33_0_1_2 : (⟨S1x1x33, .f32⟩ : BufTy).Contents (Elt F) → (⟨S8192x192x33, .f32⟩ : BufTy).Contents (Elt F)),
    binary main_v46 main_v47 main_v48 (subf : (⟨S8192x192x33, .f32⟩ : BufTy).Contents (Elt F) → (⟨S8192x192x33, .f32⟩ : BufTy).Contents (Elt F) → (⟨S8192x192x33, .f32⟩ : BufTy).Contents (Elt F)),
    unary main_cst main_v49 ((extractStridedSlice S33 ![2] · slices_S36_S33_2) : (⟨S36, .f32⟩ : BufTy).Contents (Elt F) → (⟨S33, .f32⟩ : BufTy).Contents (Elt F)),
    unary main_cst main_v50 ((extractStridedSlice S33 ![0] · slices_S36_S33_0) : (⟨S36, .f32⟩ : BufTy).Contents (Elt F) → (⟨S33, .f32⟩ : BufTy).Contents (Elt F)),
    binary main_v49 main_v50 main_v51 (subf : (⟨S33, .f32⟩ : BufTy).Contents (Elt F) → (⟨S33, .f32⟩ : BufTy).Contents (Elt F) → (⟨S33, .f32⟩ : BufTy).Contents (Elt F)),
    nullary main_cst_2 (constant S_ .f32 0x33D6BF95#32),
    unary main_cst_2 main_v52 (broadcastInDim S33 ![] bcast_S_S33 : (⟨S_, .f32⟩ : BufTy).Contents (Elt F) → (⟨S33, .f32⟩ : BufTy).Contents (Elt F)),
    binary main_v51 main_v52 main_v53 (addf : (⟨S33, .f32⟩ : BufTy).Contents (Elt F) → (⟨S33, .f32⟩ : BufTy).Contents (Elt F) → (⟨S33, .f32⟩ : BufTy).Contents (Elt F)),
    unary main_v53 main_v54 (broadcastInDim S1x1x33 ![2] bcast_S33_S1x1x33_2 : (⟨S33, .f32⟩ : BufTy).Contents (Elt F) → (⟨S1x1x33, .f32⟩ : BufTy).Contents (Elt F)),
    unary main_v54 main_v55 (broadcastInDim S8192x192x33 ![0, 1, 2] bcast_S1x1x33_S8192x192x33_0_1_2 : (⟨S1x1x33, .f32⟩ : BufTy).Contents (Elt F) → (⟨S8192x192x33, .f32⟩ : BufTy).Contents (Elt F)),
    binary main_v48 main_v55 main_v56 (Host.divf : (⟨S8192x192x33, .f32⟩ : BufTy).Contents (Elt F) → (⟨S8192x192x33, .f32⟩ : BufTy).Contents (Elt F) → (⟨S8192x192x33, .f32⟩ : BufTy).Contents (Elt F)),
    unary main_v43 main_v57 ((extractStridedSlice S8192x192x33 ![0, 0, 0] · slices_S8192x192x34_S8192x192x33_0_0_0) : (⟨S8192x192x34, .f32⟩ : BufTy).Contents (Elt F) → (⟨S8192x192x33, .f32⟩ : BufTy).Contents (Elt F)),
    binary main_v56 main_v57 main_v58 (mulf : (⟨S8192x192x33, .f32⟩ : BufTy).Contents (Elt F) → (⟨S8192x192x33, .f32⟩ : BufTy).Contents (Elt F) → (⟨S8192x192x33, .f32⟩ : BufTy).Contents (Elt F)),
    unary main_cst main_v59 ((extractStridedSlice S33 ![3] · slices_S36_S33_3) : (⟨S36, .f32⟩ : BufTy).Contents (Elt F) → (⟨S33, .f32⟩ : BufTy).Contents (Elt F)),
    unary main_v59 main_v60 (broadcastInDim S1x1x33 ![2] bcast_S33_S1x1x33_2 : (⟨S33, .f32⟩ : BufTy).Contents (Elt F) → (⟨S1x1x33, .f32⟩ : BufTy).Contents (Elt F)),
    unary main_v60 main_v61 (broadcastInDim S8192x192x33 ![0, 1, 2] bcast_S1x1x33_S8192x192x33_0_1_2 : (⟨S1x1x33, .f32⟩ : BufTy).Contents (Elt F) → (⟨S8192x192x33, .f32⟩ : BufTy).Contents (Elt F)),
    unary main_v0 main_v62 (broadcastInDim S8192x192x33 ![0, 1, 2] bcast_S8192x192x1_S8192x192x33_0_1_2 : (⟨S8192x192x1, .f32⟩ : BufTy).Contents (Elt F) → (⟨S8192x192x33, .f32⟩ : BufTy).Contents (Elt F)),
    binary main_v61 main_v62 main_v63 (subf : (⟨S8192x192x33, .f32⟩ : BufTy).Contents (Elt F) → (⟨S8192x192x33, .f32⟩ : BufTy).Contents (Elt F) → (⟨S8192x192x33, .f32⟩ : BufTy).Contents (Elt F)),
    unary main_cst main_v64 ((extractStridedSlice S33 ![3] · slices_S36_S33_3) : (⟨S36, .f32⟩ : BufTy).Contents (Elt F) → (⟨S33, .f32⟩ : BufTy).Contents (Elt F)),
    unary main_cst main_v65 ((extractStridedSlice S33 ![1] · slices_S36_S33_1) : (⟨S36, .f32⟩ : BufTy).Contents (Elt F) → (⟨S33, .f32⟩ : BufTy).Contents (Elt F)),
    binary main_v64 main_v65 main_v66 (subf : (⟨S33, .f32⟩ : BufTy).Contents (Elt F) → (⟨S33, .f32⟩ : BufTy).Contents (Elt F) → (⟨S33, .f32⟩ : BufTy).Contents (Elt F)),
    nullary main_cst_3 (constant S_ .f32 0x33D6BF95#32),
    unary main_cst_3 main_v67 (broadcastInDim S33 ![] bcast_S_S33 : (⟨S_, .f32⟩ : BufTy).Contents (Elt F) → (⟨S33, .f32⟩ : BufTy).Contents (Elt F)),
    binary main_v66 main_v67 main_v68 (addf : (⟨S33, .f32⟩ : BufTy).Contents (Elt F) → (⟨S33, .f32⟩ : BufTy).Contents (Elt F) → (⟨S33, .f32⟩ : BufTy).Contents (Elt F)),
    unary main_v68 main_v69 (broadcastInDim S1x1x33 ![2] bcast_S33_S1x1x33_2 : (⟨S33, .f32⟩ : BufTy).Contents (Elt F) → (⟨S1x1x33, .f32⟩ : BufTy).Contents (Elt F)),
    unary main_v69 main_v70 (broadcastInDim S8192x192x33 ![0, 1, 2] bcast_S1x1x33_S8192x192x33_0_1_2 : (⟨S1x1x33, .f32⟩ : BufTy).Contents (Elt F) → (⟨S8192x192x33, .f32⟩ : BufTy).Contents (Elt F)),
    binary main_v63 main_v70 main_v71 (Host.divf : (⟨S8192x192x33, .f32⟩ : BufTy).Contents (Elt F) → (⟨S8192x192x33, .f32⟩ : BufTy).Contents (Elt F) → (⟨S8192x192x33, .f32⟩ : BufTy).Contents (Elt F)),
    unary main_v43 main_v72 ((extractStridedSlice S8192x192x33 ![0, 0, 1] · slices_S8192x192x34_S8192x192x33_0_0_1) : (⟨S8192x192x34, .f32⟩ : BufTy).Contents (Elt F) → (⟨S8192x192x33, .f32⟩ : BufTy).Contents (Elt F)),
    binary main_v71 main_v72 main_v73 (mulf : (⟨S8192x192x33, .f32⟩ : BufTy).Contents (Elt F) → (⟨S8192x192x33, .f32⟩ : BufTy).Contents (Elt F) → (⟨S8192x192x33, .f32⟩ : BufTy).Contents (Elt F)),
    binary main_v58 main_v73 main_v74 (addf : (⟨S8192x192x33, .f32⟩ : BufTy).Contents (Elt F) → (⟨S8192x192x33, .f32⟩ : BufTy).Contents (Elt F) → (⟨S8192x192x33, .f32⟩ : BufTy).Contents (Elt F)),
    unary main_cst main_v75 ((extractStridedSlice S32 ![0] · slices_S36_S32_0) : (⟨S36, .f32⟩ : BufTy).Contents (Elt F) → (⟨S32, .f32⟩ : BufTy).Contents (Elt F)),
    unary main_v75 main_v76 (broadcastInDim S1x1x32 ![2] bcast_S32_S1x1x32_2 : (⟨S32, .f32⟩ : BufTy).Contents (Elt F) → (⟨S1x1x32, .f32⟩ : BufTy).Contents (Elt F)),
    unary main_v0 main_v77 (broadcastInDim S8192x192x32 ![0, 1, 2] bcast_S8192x192x1_S8192x192x32_0_1_2 : (⟨S8192x192x1, .f32⟩ : BufTy).Contents (Elt F) → (⟨S8192x192x32, .f32⟩ : BufTy).Contents (Elt F)),
    unary main_v76 main_v78 (broadcastInDim S8192x192x32 ![0, 1, 2] bcast_S1x1x32_S8192x192x32_0_1_2 : (⟨S1x1x32, .f32⟩ : BufTy).Contents (Elt F) → (⟨S8192x192x32, .f32⟩ : BufTy).Contents (Elt F)),
    binary main_v77 main_v78 main_v79 (subf : (⟨S8192x192x32, .f32⟩ : BufTy).Contents (Elt F) → (⟨S8192x192x32, .f32⟩ : BufTy).Contents (Elt F) → (⟨S8192x192x32, .f32⟩ : BufTy).Contents (Elt F)),
    unary main_cst main_v80 ((extractStridedSlice S32 ![3] · slices_S36_S32_3) : (⟨S36, .f32⟩ : BufTy).Contents (Elt F) → (⟨S32, .f32⟩ : BufTy).Contents (Elt F)),
    unary main_cst main_v81 ((extractStridedSlice S32 ![0] · slices_S36_S32_0) : (⟨S36, .f32⟩ : BufTy).Contents (Elt F) → (⟨S32, .f32⟩ : BufTy).Contents (Elt F)),
    binary main_v80 main_v81 main_v82 (subf : (⟨S32, .f32⟩ : BufTy).Contents (Elt F) → (⟨S32, .f32⟩ : BufTy).Contents (Elt F) → (⟨S32, .f32⟩ : BufTy).Contents (Elt F)),
    nullary main_cst_4 (constant S_ .f32 0x33D6BF95#32),
    unary main_cst_4 main_v83 (broadcastInDim S32 ![] bcast_S_S32 : (⟨S_, .f32⟩ : BufTy).Contents (Elt F) → (⟨S32, .f32⟩ : BufTy).Contents (Elt F)),
    binary main_v82 main_v83 main_v84 (addf : (⟨S32, .f32⟩ : BufTy).Contents (Elt F) → (⟨S32, .f32⟩ : BufTy).Contents (Elt F) → (⟨S32, .f32⟩ : BufTy).Contents (Elt F)),
    unary main_v84 main_v85 (broadcastInDim S1x1x32 ![2] bcast_S32_S1x1x32_2 : (⟨S32, .f32⟩ : BufTy).Contents (Elt F) → (⟨S1x1x32, .f32⟩ : BufTy).Contents (Elt F)),
    unary main_v85 main_v86 (broadcastInDim S8192x192x32 ![0, 1, 2] bcast_S1x1x32_S8192x192x32_0_1_2 : (⟨S1x1x32, .f32⟩ : BufTy).Contents (Elt F) → (⟨S8192x192x32, .f32⟩ : BufTy).Contents (Elt F)),
    binary main_v79 main_v86 main_v87 (Host.divf : (⟨S8192x192x32, .f32⟩ : BufTy).Contents (Elt F) → (⟨S8192x192x32, .f32⟩ : BufTy).Contents (Elt F) → (⟨S8192x192x32, .f32⟩ : BufTy).Contents (Elt F)),
    unary main_v74 main_v88 ((extractStridedSlice S8192x192x32 ![0, 0, 0] · slices_S8192x192x33_S8192x192x32_0_0_0) : (⟨S8192x192x33, .f32⟩ : BufTy).Contents (Elt F) → (⟨S8192x192x32, .f32⟩ : BufTy).Contents (Elt F)),
    binary main_v87 main_v88 main_v89 (mulf : (⟨S8192x192x32, .f32⟩ : BufTy).Contents (Elt F) → (⟨S8192x192x32, .f32⟩ : BufTy).Contents (Elt F) → (⟨S8192x192x32, .f32⟩ : BufTy).Contents (Elt F)),
    unary main_cst main_v90 ((extractStridedSlice S32 ![4] · slices_S36_S32_4) : (⟨S36, .f32⟩ : BufTy).Contents (Elt F) → (⟨S32, .f32⟩ : BufTy).Contents (Elt F)),
    unary main_v90 main_v91 (broadcastInDim S1x1x32 ![2] bcast_S32_S1x1x32_2 : (⟨S32, .f32⟩ : BufTy).Contents (Elt F) → (⟨S1x1x32, .f32⟩ : BufTy).Contents (Elt F)),
    unary main_v91 main_v92 (broadcastInDim S8192x192x32 ![0, 1, 2] bcast_S1x1x32_S8192x192x32_0_1_2 : (⟨S1x1x32, .f32⟩ : BufTy).Contents (Elt F) → (⟨S8192x192x32, .f32⟩ : BufTy).Contents (Elt F)),
    unary main_v0 main_v93 (broadcastInDim S8192x192x32 ![0, 1, 2] bcast_S8192x192x1_S8192x192x32_0_1_2 : (⟨S8192x192x1, .f32⟩ : BufTy).Contents (Elt F) → (⟨S8192x192x32, .f32⟩ : BufTy).Contents (Elt F)),
    binary main_v92 main_v93 main_v94 (subf : (⟨S8192x192x32, .f32⟩ : BufTy).Contents (Elt F) → (⟨S8192x192x32, .f32⟩ : BufTy).Contents (Elt F) → (⟨S8192x192x32, .f32⟩ : BufTy).Contents (Elt F)),
    unary main_cst main_v95 ((extractStridedSlice S32 ![4] · slices_S36_S32_4) : (⟨S36, .f32⟩ : BufTy).Contents (Elt F) → (⟨S32, .f32⟩ : BufTy).Contents (Elt F)),
    unary main_cst main_v96 ((extractStridedSlice S32 ![1] · slices_S36_S32_1) : (⟨S36, .f32⟩ : BufTy).Contents (Elt F) → (⟨S32, .f32⟩ : BufTy).Contents (Elt F)),
    binary main_v95 main_v96 main_v97 (subf : (⟨S32, .f32⟩ : BufTy).Contents (Elt F) → (⟨S32, .f32⟩ : BufTy).Contents (Elt F) → (⟨S32, .f32⟩ : BufTy).Contents (Elt F)),
    nullary main_cst_5 (constant S_ .f32 0x33D6BF95#32),
    unary main_cst_5 main_v98 (broadcastInDim S32 ![] bcast_S_S32 : (⟨S_, .f32⟩ : BufTy).Contents (Elt F) → (⟨S32, .f32⟩ : BufTy).Contents (Elt F)),
    binary main_v97 main_v98 main_v99 (addf : (⟨S32, .f32⟩ : BufTy).Contents (Elt F) → (⟨S32, .f32⟩ : BufTy).Contents (Elt F) → (⟨S32, .f32⟩ : BufTy).Contents (Elt F)),
    unary main_v99 main_v100 (broadcastInDim S1x1x32 ![2] bcast_S32_S1x1x32_2 : (⟨S32, .f32⟩ : BufTy).Contents (Elt F) → (⟨S1x1x32, .f32⟩ : BufTy).Contents (Elt F)),
    unary main_v100 main_v101 (broadcastInDim S8192x192x32 ![0, 1, 2] bcast_S1x1x32_S8192x192x32_0_1_2 : (⟨S1x1x32, .f32⟩ : BufTy).Contents (Elt F) → (⟨S8192x192x32, .f32⟩ : BufTy).Contents (Elt F)),
    binary main_v94 main_v101 main_v102 (Host.divf : (⟨S8192x192x32, .f32⟩ : BufTy).Contents (Elt F) → (⟨S8192x192x32, .f32⟩ : BufTy).Contents (Elt F) → (⟨S8192x192x32, .f32⟩ : BufTy).Contents (Elt F)),
    unary main_v74 main_v103 ((extractStridedSlice S8192x192x32 ![0, 0, 1] · slices_S8192x192x33_S8192x192x32_0_0_1) : (⟨S8192x192x33, .f32⟩ : BufTy).Contents (Elt F) → (⟨S8192x192x32, .f32⟩ : BufTy).Contents (Elt F)),
    binary main_v102 main_v103 main_v104 (mulf : (⟨S8192x192x32, .f32⟩ : BufTy).Contents (Elt F) → (⟨S8192x192x32, .f32⟩ : BufTy).Contents (Elt F) → (⟨S8192x192x32, .f32⟩ : BufTy).Contents (Elt F)),
    binary main_v89 main_v104 main_v105 (addf : (⟨S8192x192x32, .f32⟩ : BufTy).Contents (Elt F) → (⟨S8192x192x32, .f32⟩ : BufTy).Contents (Elt F) → (⟨S8192x192x32, .f32⟩ : BufTy).Contents (Elt F)),
    unary main_arg1 main_v106 (broadcastInDim S8192x32x3 ![0, 1, 2] bcast_S8192x32x1_S8192x32x3_0_1_2 : (⟨S8192x32x1, .f32⟩ : BufTy).Contents (Elt F) → (⟨S8192x32x3, .f32⟩ : BufTy).Contents (Elt F)),
    binary main_arg0 main_v106 main_v107 (mulf : (⟨S8192x32x3, .f32⟩ : BufTy).Contents (Elt F) → (⟨S8192x32x3, .f32⟩ : BufTy).Contents (Elt F) → (⟨S8192x32x3, .f32⟩ : BufTy).Contents (Elt F)),
    binary main_v105 main_v107 main_v108 ((fun l r => Host.dotGeneral dot_S8192x192x32_S8192x32x3_S8192x192x3_2_1_1_2_0_0 none l r) : (⟨S8192x192x32, .f32⟩ : BufTy).Contents (Elt F) → (⟨S8192x32x3, .f32⟩ : BufTy).Contents (Elt F) → (⟨S8192x192x3, .f32⟩ : BufTy).Contents (Elt F)),
    binary main_v105 main_arg1 main_v109 ((fun l r => Host.dotGeneral dot_S8192x192x32_S8192x32x1_S8192x192x1_2_1_1_2_0_0 none l r) : (⟨S8192x192x32, .f32⟩ : BufTy).Contents (Elt F) → (⟨S8192x32x1, .f32⟩ : BufTy).Contents (Elt F) → (⟨S8192x192x1, .f32⟩ : BufTy).Contents (Elt F)),
    nullary main_cst_6 (constant S_ .f32 0x33D6BF95#32),
    unary main_cst_6 main_v110 (broadcastInDim S8192x192x1 ![] bcast_S_S8192x192x1 : (⟨S_, .f32⟩ : BufTy).Contents (Elt F) → (⟨S8192x192x1, .f32⟩ : BufTy).Contents (Elt F)),
    binary main_v109 main_v110 main_v111 (addf : (⟨S8192x192x1, .f32⟩ : BufTy).Contents (Elt F) → (⟨S8192x192x1, .f32⟩ : BufTy).Contents (Elt F) → (⟨S8192x192x1, .f32⟩ : BufTy).Contents (Elt F)),
    unary main_v111 main_v112 (broadcastInDim S8192x192x3 ![0, 1, 2] bcast_S8192x192x1_S8192x192x3_0_1_2 : (⟨S8192x192x1, .f32⟩ : BufTy).Contents (Elt F) → (⟨S8192x192x3, .f32⟩ : BufTy).Contents (Elt F)),
    binary main_v108 main_v112 main_v113 (Host.divf : (⟨S8192x192x3, .f32⟩ : BufTy).Contents (Elt F) → (⟨S8192x192x3, .f32⟩ : BufTy).Contents (Elt F) → (⟨S8192x192x3, .f32⟩ : BufTy).Contents (Elt F)),
    unary main_v113 main_v114 (broadcastInDim S8192x192x3x1 ![0, 1, 2] bcast_S8192x192x3_S8192x192x3x1_0_1_2 : (⟨S8192x192x3, .f32⟩ : BufTy).Contents (Elt F) → (⟨S8192x192x3x1, .f32⟩ : BufTy).Contents (Elt F)) ]

set_option maxRecDepth 8192 in
/-- Every operation reads and writes TensorCore buffers only. -/
theorem ops_sub : (ops : List (HloOp τ sig (Elt F))).Forall fun op => op.bufs ⊆ tcRefs τ sig :=
  ⟨nullary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., binary_bufs_sub .., unary_bufs_sub .., binary_bufs_sub .., binary_bufs_sub .., binary_bufs_sub .., nullary_bufs_sub .., unary_bufs_sub .., binary_bufs_sub .., unary_bufs_sub .., binary_bufs_sub .., unary_bufs_sub ..⟩

end Cert.ReferenceIdeal.HandRun

end
-- ==== Proof.RefRun.lean ====
/-
  The reference program's run, read back as one term of its arguments.

  The program is straight-line: 123 host operations (RefOps.lean lists them). Every weakly fair execution runs them in
  order and leaves each buffer at the composition of the operations that made it. That composition is named here stage
  by stage, following the mathematics: the knot table and the guard (two constants), the parameters as a column stack,
  the degree-0 basis functions (35 per row: the indicator of each knot span), then one Cox–de Boor step per degree
  (34, 33 and at last 32 functions per row) — each step two quotients of a difference of a knot and the parameter by a
  guarded difference of two knots, times the two neighbouring functions of the lower degree —, the control points times
  their weights, the two batched products against the 32 cubic functions, and the quotient; the result carries a
  trailing unit axis. Nothing is computed here: `run` only says that the result buffer ends at this term.
-/
import proofs.«124682_j36618891166097_2_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
/-- @main is its operations in sequence. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-! ## The stages -/

/-- The 36 knots, as the program's constant. -/
def knots : FVec F S36 .f32 := fun i => FloatOps.ofBits .f32 (lit0 (S36.rowMajor i))

/-- The guard added to every denominator, a scalar constant. -/
def guard : FVec F S_ .f32 := constant S_ .f32 0x33D6BF95#32

/-- The parameters, one per row `(g, r)`, as a column stack. -/
def tcol (ub : FVec F S8192x192 .f32) : FVec F S8192x192x1 .f32 :=
  broadcastInDim S8192x192x1 ![0, 1] bcast_S8192x192_S8192x192x1_0_1 ub

/-- Degree 0: per row, the indicator of each of the 35 knot spans. -/
def deg0 (ub : FVec F S8192x192 .f32) : FVec F S8192x192x35 .f32 :=
  uitofp .f32 (andi
    (cmpf .ole (broadcastInDim S8192x192x35 ![0, 1, 2] bcast_S1x1x35_S8192x192x35_0_1_2 (broadcastInDim S1x1x35 ![2] bcast_S35_S1x1x35_2 (extractStridedSlice S35 ![0] knots slices_S36_S35_0))) (broadcastInDim S8192x192x35 ![0, 1, 2] bcast_S8192x192x1_S8192x192x35_0_1_2 (tcol ub)))
    (cmpf .olt (broadcastInDim S8192x192x35 ![0, 1, 2] bcast_S8192x192x1_S8192x192x35_0_1_2 (tcol ub)) (broadcastInDim S8192x192x35 ![0, 1, 2] bcast_S1x1x35_S8192x192x35_0_1_2 (broadcastInDim S1x1x35 ![2] bcast_S35_S1x1x35_2 (extractStridedSlice S35 ![1] knots slices_S36_S35_1)))))

/-- Degree 1: 34 functions per row. -/
def deg1 (ub : FVec F S8192x192 .f32) : FVec F S8192x192x34 .f32 :=
  addf
    (mulf
      (Host.divf (subf (broadcastInDim S8192x192x34 ![0, 1, 2] bcast_S8192x192x1_S8192x192x34_0_1_2 (tcol ub)) (broadcastInDim S8192x192x34 ![0, 1, 2] bcast_S1x1x34_S8192x192x34_0_1_2 (broadcastInDim S1x1x34 ![2] bcast_S34_S1x1x34_2 (extractStridedSlice S34 ![0] knots slices_S36_S34_0))))
        (broadcastInDim S8192x192x34 ![0, 1, 2] bcast_S1x1x34_S8192x192x34_0_1_2 (broadcastInDim S1x1x34 ![2] bcast_S34_S1x1x34_2 (addf (subf (extractStridedSlice S34 ![1] knots slices_S36_S34_1) (extractStridedSlice S34 ![0] knots slices_S36_S34_0)) (broadcastInDim S34 ![] bcast_S_S34 guard)))))
      (extractStridedSlice S8192x192x34 ![0, 0, 0] (deg0 ub) slices_S8192x192x35_S8192x192x34_0_0_0))
    (mulf
      (Host.divf (subf (broadcastInDim S8192x192x34 ![0, 1, 2] bcast_S1x1x34_S8192x192x34_0_1_2 (broadcastInDim S1x1x34 ![2] bcast_S34_S1x1x34_2 (extractStridedSlice S34 ![2] knots slices_S36_S34_2))) (broadcastInDim S8192x192x34 ![0, 1, 2] bcast_S8192x192x1_S8192x192x34_0_1_2 (tcol ub)))
        (broadcastInDim S8192x192x34 ![0, 1, 2] bcast_S1x1x34_S8192x192x34_0_1_2 (broadcastInDim S1x1x34 ![2] bcast_S34_S1x1x34_2 (addf (subf (extractStridedSlice S34 ![2] knots slices_S36_S34_2) (extractStridedSlice S34 ![1] knots slices_S36_S34_1)) (broadcastInDim S34 ![] bcast_S_S34 guard)))))
      (extractStridedSlice S8192x192x34 ![0, 0, 1] (deg0 ub) slices_S8192x192x35_S8192x192x34_0_0_1))

/-- Degree 2: 33 functions per row. -/
def deg2 (ub : FVec F S8192x192 .f32) : FVec F S8192x192x33 .f32 :=
  addf
    (mulf
      (Host.divf (subf (broadcastInDim S8192x192x33 ![0, 1, 2] bcast_S8192x192x1_S8192x192x33_0_1_2 (tcol ub)) (broadcastInDim S8192x192x33 ![0, 1, 2] bcast_S1x1x33_S8192x192x33_0_1_2 (broadcastInDim S1x1x33 ![2] bcast_S33_S1x1x33_2 (extractStridedSlice S33 ![0] knots slices_S36_S33_0))))
        (broadcastInDim S8192x192x33 ![0, 1, 2] bcast_S1x1x33_S8192x192x33_0_1_2 (broadcastInDim S1x1x33 ![2] bcast_S33_S1x1x33_2 (addf (subf (extractStridedSlice S33 ![2] knots slices_S36_S33_2) (extractStridedSlice S33 ![0] knots slices_S36_S33_0)) (broadcastInDim S33 ![] bcast_S_S33 guard)))))
      (extractStridedSlice S8192x192x33 ![0, 0, 0] (deg1 ub) slices_S8192x192x34_S8192x192x33_0_0_0))
    (mulf
      (Host.divf (subf (broadcastInDim S8192x192x33 ![0, 1, 2] bcast_S1x1x33_S8192x192x33_0_1_2 (broadcastInDim S1x1x33 ![2] bcast_S33_S1x1x33_2 (extractStridedSlice S33 ![3] knots slices_S36_S33_3))) (broadcastInDim S8192x192x33 ![0, 1, 2] bcast_S8192x192x1_S8192x192x33_0_1_2 (tcol ub)))
        (broadcastInDim S8192x192x33 ![0, 1, 2] bcast_S1x1x33_S8192x192x33_0_1_2 (broadcastInDim S1x1x33 ![2] bcast_S33_S1x1x33_2 (addf (subf (extractStridedSlice S33 ![3] knots slices_S36_S33_3) (extractStridedSlice S33 ![1] knots slices_S36_S33_1)) (broadcastInDim S33 ![] bcast_S_S33 guard)))))
      (extractStridedSlice S8192x192x33 ![0, 0, 1] (deg1 ub) slices_S8192x192x34_S8192x192x33_0_0_1))

/-- Degree 3: the 32 cubic basis functions per row. -/
def deg3 (ub : FVec F S8192x192 .f32) : FVec F S8192x192x32 .f32 :=
  addf
    (mulf
      (Host.divf (subf (broadcastInDim S8192x192x32 ![0, 1, 2] bcast_S8192x192x1_S8192x192x32_0_1_2 (tcol ub)) (broadcastInDim S8192x192x32 ![0, 1, 2] bcast_S1x1x32_S8192x192x32_0_1_2 (broadcastInDim S1x1x32 ![2] bcast_S32_S1x1x32_2 (extractStridedSlice S32 ![0] knots slices_S36_S32_0))))
        (broadcastInDim S8192x192x32 ![0, 1, 2] bcast_S1x1x32_S8192x192x32_0_1_2 (broadcastInDim S1x1x32 ![2] bcast_S32_S1x1x32_2 (addf (subf (extractStridedSlice S32 ![3] knots slices_S36_S32_3) (extractStridedSlice S32 ![0] knots slices_S36_S32_0)) (broadcastInDim S32 ![] bcast_S_S32 guard)))))
      (extractStridedSlice S8192x192x32 ![0, 0, 0] (deg2 ub) slices_S8192x192x33_S8192x192x32_0_0_0))
    (mulf
      (Host.divf (subf (broadcastInDim S8192x192x32 ![0, 1, 2] bcast_S1x1x32_S8192x192x32_0_1_2 (broadcastInDim S1x1x32 ![2] bcast_S32_S1x1x32_2 (extractStridedSlice S32 ![4] knots slices_S36_S32_4))) (broadcastInDim S8192x192x32 ![0, 1, 2] bcast_S8192x192x1_S8192x192x32_0_1_2 (tcol ub)))
        (broadcastInDim S8192x192x32 ![0, 1, 2] bcast_S1x1x32_S8192x192x32_0_1_2 (broadcastInDim S1x1x32 ![2] bcast_S32_S1x1x32_2 (addf (subf (extractStridedSlice S32 ![4] knots slices_S36_S32_4) (extractStridedSlice S32 ![1] knots slices_S36_S32_1)) (broadcastInDim S32 ![] bcast_S_S32 guard)))))
      (extractStridedSlice S8192x192x32 ![0, 0, 1] (deg2 ub) slices_S8192x192x33_S8192x192x32_0_0_1))

/-- The curve points: the basis functions against the weighted control points, over the basis functions against the
    weights plus the guard. -/
def core (cp : FVec F S8192x32x3 .f32) (w : FVec F S8192x32x1 .f32) (ub : FVec F S8192x192 .f32) : FVec F S8192x192x3 .f32 :=
  Host.divf
    (Host.dotGeneral dot_S8192x192x32_S8192x32x3_S8192x192x3_2_1_1_2_0_0 none (deg3 ub)
      (mulf cp (broadcastInDim S8192x32x3 ![0, 1, 2] bcast_S8192x32x1_S8192x32x3_0_1_2 w)))
    (broadcastInDim S8192x192x3 ![0, 1, 2] bcast_S8192x192x1_S8192x192x3_0_1_2
      (addf (Host.dotGeneral dot_S8192x192x32_S8192x32x1_S8192x192x1_2_1_1_2_0_0 none (deg3 ub) w)
        (broadcastInDim S8192x192x1 ![] bcast_S_S8192x192x1 guard)))

/-- The result: the curve points with a trailing unit axis. -/
def result (cp : FVec F S8192x32x3 .f32) (w : FVec F S8192x32x1 .f32) (ub : FVec F S8192x192 .f32) : FVec F S8192x192x3x1 .f32 :=
  broadcastInDim S8192x192x3x1 ![0, 1, 2] bcast_S8192x192x3_S8192x192x3x1_0_1_2 (core cp w ub)

/-! ## The run -/

set_option maxRecDepth 16384 in
set_option maxHeartbeats 64000000 in
/-- On every device, for any float values, from any memory with zero counters: every weakly fair execution of @main
    terminates with the result buffer at `result` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v114).trans (by
        after_results_simp <;> rfl <;> (unfold result core deg3 deg2 deg1 deg0 tcol guard knots; rfl)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.HandRun

end
-- ==== Proof.RefLevels.lean ====
/-
  What the reference computes, entry by entry, at the ideal values.

  The reference works on all 8192 batch entries at once; its intermediates are arrays `[8192, 192, n]`: for each row
  `(g, r)`, with parameter `t = ub (g, r)`, the `n` basis functions of one degree. Read at `(g, r, i)` the stages of
  its run (RefRun.lean) are the specification's: the indicator of the knot span, one Cox–de Boor step per degree, and at
  `(g, r, c)` the rational curve point of batch entry `g`'s control points and weights at `t`. As for the kernel, the
  proofs only move the index inward — here through `broadcast_in_dim`, the cuts, and the host's two batched products.
-/
import proofs.«124682_j36618891166097_2_alg».proof.Proof.RefRun
import proofs.«124682_j36618891166097_2_alg».proof.Proof.Basis
import proofs.«124682_j36618891166097_2_alg».proof.Proof.LibLaneReads
import proofs.«124682_j36618891166097_2_alg».proof.Proof.LibBatchedProduct

noncomputable section

namespace Cert.ReferenceIdeal.Levels

open Cert.ReferenceIdeal Cert.ReferenceIdeal.Gen Cert.ReferenceIdeal.HandRun Cert.Spline Cert.Lib
open Idealize.ShloMosaic Idealize.ShloMosaic.ValueIdx

/-- The program's 36 words are the specification's knots'. -/
theorem lit0_eq : ∀ i : Fin 36, lit0 i = knotWord i.val := by decide

/-- The knot table at `i` is knot `i`. -/
theorem knots_apply (i : Fin 36) : knots (F := Ideal) (ix1 i) = knot i.val := by
  show Ideal.ofBits .f32 (lit0 (S36.rowMajor (ix1 i))) = Ideal.ofBits .f32 (knotWord i.val)
  have hr : (S36.rowMajor (ix1 i)).val = i.val := by rw [Shape.rowMajor_val_one]
  exact congrArg (Ideal.ofBits .f32) ((lit0_eq (S36.rowMajor (ix1 i))).trans (congrArg knotWord hr))

/-- The parameters as a column stack: at `(g, r, ·)`, row `(g, r)`'s parameter. -/
theorem param_apply (ub : FVec Ideal S8192x192 .f32) (g : Fin 8192) (r : Fin 192) (u : Fin 1) :
    tcol (F := Ideal) ub (ix3 g r u) = ub (ix2 g r) := by
  unfold tcol
  exact broadcastInDim_ab_ab1_apply _ ub _ g r u rfl

/-- Degree 0 at `(g, r, i)`: the indicator of knot span `i`. -/
theorem deg0_apply (ub : FVec Ideal S8192x192 .f32) (g : Fin 8192) (r : Fin 192) (i : Fin 35) :
    deg0 (F := Ideal) ub (ix3 g r i) = ind (ub (ix2 g r)) i.val := by
  unfold deg0 ind
  simp only [uitofp, andi, cmpf, broadcastInDim_row_apply, broadcastInDim_col_apply, slice1_eq, param_apply, knots_apply,
    uitofp_andi_cmp, Nat.add_zero]

/-- Degree 1 at `(g, r, i)`: one step from degree 0. -/
theorem deg1_apply (ub : FVec Ideal S8192x192 .f32) (g : Fin 8192) (r : Fin 192) (i : Fin 34) :
    deg1 (F := Ideal) ub (ix3 g r i) = step 1 (ub (ix2 g r)) (ind (ub (ix2 g r))) i.val := by
  unfold deg1 step eps
  simp only [addf, mulf, subf, Host.divf, broadcastInDim_row_apply, broadcastInDim_col_apply, broadcastInDim_scalar_apply,
    slice1_eq, slice3_last_eq, param_apply, knots_apply, deg0_apply, Nat.add_zero]
  rfl

/-- Degree 2 at `(g, r, i)`: one step from degree 1. -/
theorem deg2_apply (ub : FVec Ideal S8192x192 .f32) (g : Fin 8192) (r : Fin 192) (i : Fin 33) :
    deg2 (F := Ideal) ub (ix3 g r i) = step 2 (ub (ix2 g r)) (step 1 (ub (ix2 g r)) (ind (ub (ix2 g r)))) i.val := by
  unfold deg2 step eps
  simp only [addf, mulf, subf, Host.divf, broadcastInDim_row_apply, broadcastInDim_col_apply, broadcastInDim_scalar_apply,
    slice1_eq, slice3_last_eq, param_apply, knots_apply, deg1_apply, Nat.add_zero]
  rfl

/-- Degree 3 at `(g, r, i)`: one step from degree 2. -/
theorem deg3_apply (ub : FVec Ideal S8192x192 .f32) (g : Fin 8192) (r : Fin 192) (i : Fin 32) :
    deg3 (F := Ideal) ub (ix3 g r i) = step 3 (ub (ix2 g r)) (step 2 (ub (ix2 g r)) (step 1 (ub (ix2 g r)) (ind (ub (ix2 g r))))) i.val := by
  unfold deg3 step eps
  simp only [addf, mulf, subf, Host.divf, broadcastInDim_row_apply, broadcastInDim_col_apply, broadcastInDim_scalar_apply,
    slice1_eq, slice3_last_eq, param_apply, knots_apply, deg2_apply, Nat.add_zero]
  rfl

/-- The host's two batched products' dimension numbers are the batched product's. -/
theorem dims3_eq : dot_S8192x192x32_S8192x32x3_S8192x192x3_2_1_1_2_0_0
    = batched3 8192 192 32 3 Facts₀.dot_S8192x192x32_S8192x32x3_S8192x192x3_2_1_1_2_0_0_wf := rfl
theorem dims1_eq : dot_S8192x192x32_S8192x32x1_S8192x192x1_2_1_1_2_0_0
    = batched3 8192 192 32 1 Facts₀.dot_S8192x192x32_S8192x32x1_S8192x192x1_2_1_1_2_0_0_wf := rfl

/-- The curve points at `(g, r, c)`. -/
theorem core_apply (cp : FVec Ideal S8192x32x3 .f32) (w : FVec Ideal S8192x32x1 .f32) (ub : FVec Ideal S8192x192 .f32)
    (g : Fin 8192) (r : Fin 192) (c : Fin 3) :
    core (F := Ideal) cp w ub (ix3 g r c)
      = point (fun k => cp (ix3 g k c)) (fun k => w (ix3 g k (0 : Fin 1))) (ub (ix2 g r)) := by
  unfold core point basis eps
  simp only [Host.divf, addf, mulf, Host.dotGeneral, dims3_eq, dims1_eq, batched3_dotGeneral_apply,
    broadcastInDim_col_apply, broadcastInDim_scalar_apply, deg3_apply]
  rfl

/-- So the reference's curve points are the specification's, as one array. -/
theorem core_eq (cp : FVec Ideal S8192x32x3 .f32) (w : FVec Ideal S8192x32x1 .f32) (ub : FVec Ideal S8192x192 .f32) :
    core (F := Ideal) cp w ub = curve cp w ub := by
  refine funext fun (j : S8192x192x3.Idx) => ?_
  obtain ⟨g, r, c, rfl⟩ : ∃ (g : Fin 8192) (r : Fin 192) (c : Fin 3), j = ix3 g r c := ⟨j 0, j 1, j 2, eq_ix3 j⟩
  exact core_apply cp w ub g r c

/-- The reference's result: the specification's curve points with a trailing unit axis. -/
theorem result_eq (cp : FVec Ideal S8192x32x3 .f32) (w : FVec Ideal S8192x32x1 .f32) (ub : FVec Ideal S8192x192 .f32) :
    result (F := Ideal) cp w ub
      = broadcastInDim S8192x192x3x1 ![0, 1, 2] bcast_S8192x192x3_S8192x192x3x1_0_1_2 (curve cp w ub) := by
  unfold result
  rw [core_eq]

end Cert.ReferenceIdeal.Levels

end
-- ==== Proof.lean ====
/-
  A rational B-spline curve evaluated at many parameters: the kernel against the plain array program.

  Inputs: for each of 8192 batch entries, 32 control points in space (`cp`), their 32 weights (`w`) and 192
  parameters (`ub`). Both programs compute, for every entry `g`, parameter `t = ub (g, r)` and coordinate `c`,

      (∑ k, N k t · (cp (g, k, c) · w (g, k))) / (∑ k, N k t · w (g, k) + ε),

  where `N k t` are the 32 cubic B-spline basis functions of the clamped uniform knot vector (36 knots), built by the
  Cox–de Boor recursion from the indicators of the knot spans, every denominator guarded by `ε` (Basis.lean states
  this once, over the extended reals). The kernel does it 32 entries per grid point, its knots a padded constant table,
  its two products on bf16 copies of their operands; the reference does it on whole arrays. At the ideal values a
  change of float format is the identity and every operation is exact, so the two are the same function of the inputs
  — no law of arithmetic is needed, and the precondition is never opened:
  • KernelLevels.lean reads one grid point's stored block at an index, KernelArray.lean assembles the 256 blocks into
    the result array and follows it through the trailing unit axis: the kernel's run ends at `curve` of its arguments;
  • RefOps.lean / RefRun.lean read the reference's run back as one term, RefLevels.lean reads that term at an index:
    the reference's run ends at the same `curve`.
  The three frames: the two kernels' are the generated frame certificates; the reference's is its run with the result
  dropped. The kernel's idealization rewrote nothing, so there is nothing to preserve.
-/
import proofs.«124682_j36618891166097_2_alg».proof.Defs
import proofs.«124682_j36618891166097_2_alg».proof.Proof.Gen.Kernel
import proofs.«124682_j36618891166097_2_alg».proof.Proof.Gen.Kernel.Skeleton
import proofs.«124682_j36618891166097_2_alg».proof.Proof.Gen.Kernel.Launch
import proofs.«124682_j36618891166097_2_alg».proof.Proof.Gen.Kernel.Points
import proofs.«124682_j36618891166097_2_alg».proof.Proof.Gen.Kernel.Frame
import proofs.«124682_j36618891166097_2_alg».proof.Proof.Gen.KernelIdeal
import proofs.«124682_j36618891166097_2_alg».proof.Proof.Gen.KernelIdeal.Skeleton
import proofs.«124682_j36618891166097_2_alg».proof.Proof.Gen.KernelIdeal.Launch
import proofs.«124682_j36618891166097_2_alg».proof.Proof.Gen.KernelIdeal.Points
import proofs.«124682_j36618891166097_2_alg».proof.Proof.Gen.KernelIdeal.Frame
import proofs.«124682_j36618891166097_2_alg».proof.Proof.Gen.ReferenceIdeal
import proofs.«124682_j36618891166097_2_alg».proof.Proof.Gen.Pre_finite_inputs
import proofs.«124682_j36618891166097_2_alg».proof.Proof.KernelArray
import proofs.«124682_j36618891166097_2_alg».proof.Proof.RefLevels
import Idealize.ShloMosaic.Adequacy
import Idealize.ShloMosaic.Init

noncomputable section

namespace Cert.Proof

open Idealize.ShloMosaic Idealize.ShloMosaic.TcCoe Idealize.SL.Sem

/-- The word-level kernel runs and leaves its arguments as they were: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories that agree on the arguments both programs end at `curve` of the arguments with a trailing unit axis:
    the kernel by its blocks (`Whole.run`), the reference by its run read at an index (`Levels.result_eq`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.Levels.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
